-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2048 : Shape := ⟨3, ![32, 2048, 2048]⟩
abbrev S_ : Shape := ⟨0, ![]⟩

class Facts : Prop where
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel

variable [Facts]

def fn {F : FTy → Type} [FloatOps F] (main_arg0 : FVec F S32x2048x2048 .f32) : IVec S_ 1 :=
  let main_v0 : FVec F S32x2048x2048 .f32 := Host.absf main_arg0
  let main_cst : FVec F S_ .f32 := constant S_ .f32 0x7F800000#32
  let main_v1 : FVec F S32x2048x2048 .f32 := broadcastInDim S32x2048x2048 ![] bcast_S_S32x2048x2048 main_cst
  let main_v2 : IVec S32x2048x2048 1 := cmpf .olt main_v0 main_v1
  let main_c : IVec S_ 1 := constantI S_ 1 1#1
  let main_v3 : IVec S_ 1 := (fun x v => Host.reduce IntOp.andi x v reducesTo_S32x2048x2048_S_d0_1_2 h_S_) main_v2 main_c
  main_v3
-- ==== Kernel.lean ====
abbrev S32x2048x2048 : Shape := ⟨3, ![32, 2048, 2048]⟩
abbrev S32x1x2048 : Shape := ⟨3, ![32, 1, 2048]⟩
abbrev S32x1x2016 : Shape := ⟨3, ![32, 1, 2016]⟩
abbrev S32x2016 : Shape := ⟨2, ![32, 2016]⟩
abbrev S1x1x2048 : Shape := ⟨3, ![1, 1, 2048]⟩
abbrev S2x160x256 : Shape := ⟨3, ![2, 160, 256]⟩
abbrev S2 : Shape := ⟨1, ![2]⟩
abbrev S144x159 : Shape := ⟨2, ![144, 159]⟩
abbrev S1 : Shape := ⟨1, ![1]⟩
abbrev S_ : Shape := ⟨0, ![]⟩
abbrev S1x159x159 : Shape := ⟨3, ![1, 159, 159]⟩
abbrev S159x159 : Shape := ⟨2, ![159, 159]⟩
abbrev S144 : Shape := ⟨1, ![144]⟩
abbrev S2016 : Shape := ⟨1, ![2016]⟩
abbrev S32 : Shape := ⟨1, ![32]⟩
abbrev S2048 : Shape := ⟨1, ![2048]⟩

abbrev nBuf : Space → Nat
  | .hbm => 4
  | .vmem => 3
  | .smem => 0
  | _ => 0

abbrev bufTy : (tb : Table) → Fin (tcTables nBuf tb) → BufTy
  | .hbm, ⟨0, _⟩ => ⟨S32x2048x2048, .f32⟩
  | .hbm, ⟨1, _⟩ => ⟨S32x1x2048, .f32⟩
  | .hbm, ⟨2, _⟩ => ⟨S32x1x2016, .f32⟩
  | .hbm, ⟨3, _⟩ => ⟨S32x2016, .f32⟩
  | .local _ .vmem, ⟨0, _⟩ => ⟨S1x1x2048, .f32⟩
  | .local _ .vmem, ⟨1, _⟩ => ⟨S1x1x2048, .f32⟩
  | .local _ .vmem, ⟨2, _⟩ => ⟨S2x160x256, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c0_i32_4 : BitVec 32 := 0#32
  let c17_i32 : BitVec 32 := 17#32
  ![arg0.toNat, 0, 17]
def k0_off2 (i : grid0.Coords) : Fin 3 → Nat :=
  let arg0 : BitVec 32 := BitVec.ofNat 32 (i 0).val
  let c144_i32 : BitVec 32 := 144#32
  let c161_i32 : BitVec 32 := 161#32
  ![arg0.toNat, 144, 161]
def k0_off3 (i : grid0.Coords) : Fin 3 → Nat :=
  let arg0 : BitVec 32 := BitVec.ofNat 32 (i 0).val
  let c288_i32 : BitVec 32 := 288#32
  let c305_i32 : BitVec 32 := 305#32
  ![arg0.toNat, 288, 305]
def k0_off4 (i : grid0.Coords) : Fin 3 → Nat :=
  let arg0 : BitVec 32 := BitVec.ofNat 32 (i 0).val
  let c432_i32 : BitVec 32 := 432#32
  let c449_i32 : BitVec 32 := 449#32
  ![arg0.toNat, 432, 449]
def k0_off5 (i : grid0.Coords) : Fin 3 → Nat :=
  let arg0 : BitVec 32 := BitVec.ofNat 32 (i 0).val
  let c576_i32 : BitVec 32 := 576#32
  let c593_i32 : BitVec 32 := 593#32
  ![arg0.toNat, 576, 593]
def k0_off6 (i : grid0.Coords) : Fin 3 → Nat :=
  let arg0 : BitVec 32 := BitVec.ofNat 32 (i 0).val
  let c720_i32 : BitVec 32 := 720#32
  let c737_i32 : BitVec 32 := 737#32
  ![arg0.toNat, 720, 737]
def k0_off7 (i : grid0.Coords) : Fin 3 → Nat :=
  let arg0 : BitVec 32 := BitVec.ofNat 32 (i 0).val
  let c864_i32 : BitVec 32 := 864#32
  let c881_i32 : BitVec 32 := 881#32
  ![arg0.toNat, 864, 881]
def k0_off8 (i : grid0.Coords) : Fin 3 → Nat :=
  let arg0 : BitVec 32 := BitVec.ofNat 32 (i 0).val
  let c1008_i32 : BitVec 32 := 1008#32
  let c1025_i32 : BitVec 32 := 1025#32
  ![arg0.toNat, 1008, 1025]
def k0_off9 (i : grid0.Coords) : Fin 3 → Nat :=
  let arg0 : BitVec 32 := BitVec.ofNat 32 (i 0).val
  let c1152_i32 : BitVec 32 := 1152#32
  let c1169_i32 : BitVec 32 := 1169#32
  ![arg0.toNat, 1152, 1169]
def k0_off10 (i : grid0.Coords) : Fin 3 → Nat :=
  let arg0 : BitVec 32 := BitVec.ofNat 32 (i 0).val
  let c1296_i32 : BitVec 32 := 1296#32
  let c1313_i32 : BitVec 32 := 1313#32
  ![arg0.toNat, 1296, 1313]
def k0_off11 (i : grid0.Coords) : Fin 3 → Nat :=
  let arg0 : BitVec 32 := BitVec.ofNat 32 (i 0).val
  let c1440_i32 : BitVec 32 := 1440#32
  let c1457_i32 : BitVec 32 := 1457#32
  ![arg0.toNat, 1440, 1457]
def k0_off12 (i : grid0.Coords) : Fin 3 → Nat :=
  let arg0 : BitVec 32 := BitVec.ofNat 32 (i 0).val
  let c1584_i32 : BitVec 32 := 1584#32
  let c1601_i32 : BitVec 32 := 1601#32
  ![arg0.toNat, 1584, 1601]
def k0_off13 (i : grid0.Coords) : Fin 3 → Nat :=
  let arg0 : BitVec 32 := BitVec.ofNat 32 (i 0).val
  let c1728_i32 : BitVec 32 := 1728#32
  let c1745_i32 : BitVec 32 := 1745#32
  ![arg0.toNat, 1728, 1745]
def k0_off14 (i : grid0.Coords) : Fin 3 → Nat :=
  let arg0 : BitVec 32 := BitVec.ofNat 32 (i 0).val
  let c1872_i32 : BitVec 32 := 1872#32
  let c1889_i32 : BitVec 32 := 1889#32
  ![arg0.toNat, 1872, 1889]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  slices_S32x1x2048_S32x1x2016_0_0_0 : S32x1x2048.Slices ![0, 0, 0] S32x1x2016
  shapeCasts_S32x1x2016_S32x2016 : S32x1x2016.ShapeCasts S32x2016
  iota_S144x159_d0_w32 : S144x159.Iotas .tc 32 [0]
  iota_S144x159_d1_w32 : S144x159.Iotas .tc 32 [1]
  inb_S2_S1_0 : ∀ a, (![0] : Fin 1 → Nat) a + S1.size a ≤ S2.size a
  squeezes_S1_S_ : S1.Squeezes S_
  inb_S2x160x256_S1x159x159_0_0_0 : ∀ a, (![0, 0, 0] : Fin 3 → Nat) a + S1x159x159.size a ≤ S2x160x256.size a
  squeezes_S1x159x159_S159x159 : S1x159x159.Squeezes S159x159
  inb_S2_S1_1 : ∀ a, (![1] : Fin 1 → Nat) a + S1.size a ≤ S2.size a
  inb_S2x160x256_S1x159x159_1_0_0 : ∀ a, (![1, 0, 0] : Fin 3 → Nat) a + S1x159x159.size a ≤ S2x160x256.size a
  h_S1x159x159 : 0 < S1x159x159.numel
  shapeCasts_S1x159x159_S159x159 : S1x159x159.ShapeCasts S159x159
  slices_S159x159_o0_0_S144x159 : S159x159.Slices ![0, 0] S144x159
  slices_S159x159_o1_0_S144x159 : S159x159.Slices ![1, 0] S144x159
  slices_S159x159_o2_0_S144x159 : S159x159.Slices ![2, 0] S144x159
  slices_S159x159_o3_0_S144x159 : S159x159.Slices ![3, 0] S144x159
  slices_S159x159_o4_0_S144x159 : S159x159.Slices ![4, 0] S144x159
  slices_S159x159_o5_0_S144x159 : S159x159.Slices ![5, 0] S144x159
  slices_S159x159_o6_0_S144x159 : S159x159.Slices ![6, 0] S144x159
  slices_S159x159_o7_0_S144x159 : S159x159.Slices ![7, 0] S144x159
  slices_S159x159_o8_0_S144x159 : S159x159.Slices ![8, 0] S144x159
  slices_S159x159_o9_0_S144x159 : S159x159.Slices ![9, 0] S144x159
  slices_S159x159_o10_0_S144x159 : S159x159.Slices ![10, 0] S144x159
  slices_S159x159_o11_0_S144x159 : S159x159.Slices ![11, 0] S144x159
  slices_S159x159_o12_0_S144x159 : S159x159.Slices ![12, 0] S144x159
  slices_S159x159_o13_0_S144x159 : S159x159.Slices ![13, 0] S144x159
  slices_S159x159_o14_0_S144x159 : S159x159.Slices ![14, 0] S144x159
  slices_S159x159_o15_0_S144x159 : S159x159.Slices ![15, 0] S144x159
  reduces_S144x159_S144 : S144x159.Reduces [1] S144
  concatenates_S144_S144_S144_S144_S144_S144_S144_S144_S144_S144_S144_S144_S144_S144_S2016_d0 : Shape.Concatenates [S144, S144, S144, S144, S144, S144, S144, S144, S144, S144, S144, S144, S144, S144] S2016 0
  concatenates_S2016_S32_S2048_d0 : Shape.Concatenates [S2016, S32] S2048 0
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  hcc0_scratch1 : 2 + S2.numel ≤ 4
  hrank0 : 0 < grid0.rank
  k0_off1_inb : ∀ i : grid0.Coords, ∀ a, (k0_off1 i) a + S1x159x159.size a ≤ S32x2048x2048.size a
  k0_off2_inb : ∀ i : grid0.Coords, ∀ a, (k0_off2 i) a + S1x159x159.size a ≤ S32x2048x2048.size a
  k0_off3_inb : ∀ i : grid0.Coords, ∀ a, (k0_off3 i) a + S1x159x159.size a ≤ S32x2048x2048.size a
  k0_off4_inb : ∀ i : grid0.Coords, ∀ a, (k0_off4 i) a + S1x159x159.size a ≤ S32x2048x2048.size a
  k0_off5_inb : ∀ i : grid0.Coords, ∀ a, (k0_off5 i) a + S1x159x159.size a ≤ S32x2048x2048.size a
  k0_off6_inb : ∀ i : grid0.Coords, ∀ a, (k0_off6 i) a + S1x159x159.size a ≤ S32x2048x2048.size a
  k0_off7_inb : ∀ i : grid0.Coords, ∀ a, (k0_off7 i) a + S1x159x159.size a ≤ S32x2048x2048.size a
  k0_off8_inb : ∀ i : grid0.Coords, ∀ a, (k0_off8 i) a + S1x159x159.size a ≤ S32x2048x2048.size a
  k0_off9_inb : ∀ i : grid0.Coords, ∀ a, (k0_off9 i) a + S1x159x159.size a ≤ S32x2048x2048.size a
  k0_off10_inb : ∀ i : grid0.Coords, ∀ a, (k0_off10 i) a + S1x159x159.size a ≤ S32x2048x2048.size a
  k0_off11_inb : ∀ i : grid0.Coords, ∀ a, (k0_off11 i) a + S1x159x159.size a ≤ S32x2048x2048.size a
  k0_off12_inb : ∀ i : grid0.Coords, ∀ a, (k0_off12 i) a + S1x159x159.size a ≤ S32x2048x2048.size a
  k0_off13_inb : ∀ i : grid0.Coords, ∀ a, (k0_off13 i) a + S1x159x159.size a ≤ S32x2048x2048.size a
  k0_off14_inb : ∀ i : grid0.Coords, ∀ a, (k0_off14 i) a + S1x159x159.size a ≤ S32x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1x2048.size a ≤ S32x1x2048.size a
  hwx0_0 : ∀ i : grid0.Coords, EltTy.bits .f32 = 32 ∨ (Rect.block (s := S32x1x2048) S1x1x2048.size (cc0_transform_1 i) (hinb0_0 i)).WholeWords (EltTy.packing .f32)

variable [Facts₀]

abbrev cc0_scratch1 : DmaSems sig S2 := SemArray.consecutive 2 S2 hcc0_scratch1

abbrev win0_0 : Pipeline.Window sig grid0 :=
  Pipeline.Window.ofSpec (Memref.whole main_call0_v0) S1x1x2048.size cc0_transform_1 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32x2048x2048 : Shape := ⟨3, ![32, 2048, 2048]⟩
abbrev S2016 : Shape := ⟨1, ![2016]⟩
abbrev S16 : Shape := ⟨1, ![16]⟩
abbrev S2016x1 : Shape := ⟨2, ![2016, 1]⟩
abbrev S1x16 : Shape := ⟨2, ![1, 16]⟩
abbrev S2016x16 : Shape := ⟨2, ![2016, 16]⟩
abbrev S_ : Shape := ⟨0, ![]⟩
abbrev S2016x16x1 : Shape := ⟨3, ![2016, 16, 1]⟩
abbrev S2016x1x16 : Shape := ⟨3, ![2016, 1, 16]⟩
abbrev S2016x16x16 : Shape := ⟨3, ![2016, 16, 16]⟩
abbrev S2016x16x16x1 : Shape := ⟨4, ![2016, 16, 16, 1]⟩
abbrev S2016x16x16x2 : Shape := ⟨4, ![2016, 16, 16, 2]⟩
abbrev S32x2016x16x16 : Shape := ⟨4, ![32, 2016, 16, 16]⟩
abbrev S32x2016 : Shape := ⟨2, ![32, 2016]⟩

abbrev nBuf : Space → Nat
  | .hbm => 46
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S2016, .i32⟩
  | .hbm, ⟨2, _⟩ => ⟨S16, .i32⟩
  | .hbm, ⟨3, _⟩ => ⟨S2016x1, .i32⟩
  | .hbm, ⟨4, _⟩ => ⟨S1x16, .i32⟩
  | .hbm, ⟨5, _⟩ => ⟨S2016x16, .i32⟩
  | .hbm, ⟨6, _⟩ => ⟨S2016x16, .i32⟩
  | .hbm, ⟨7, _⟩ => ⟨S2016x16, .i32⟩
  | .hbm, ⟨8, _⟩ => ⟨S2016x1, .i32⟩
  | .hbm, ⟨9, _⟩ => ⟨S_, .i32⟩
  | .hbm, ⟨10, _⟩ => ⟨S2016x1, .i32⟩
  | .hbm, ⟨11, _⟩ => ⟨S2016x1, .i32⟩
  | .hbm, ⟨12, _⟩ => ⟨S_, .i32⟩
  | .hbm, ⟨13, _⟩ => ⟨S2016x1, .i32⟩
  | .hbm, ⟨14, _⟩ => ⟨S2016x1, .i32⟩
  | .hbm, ⟨15, _⟩ => ⟨S1x16, .i32⟩
  | .hbm, ⟨16, _⟩ => ⟨S2016x16, .i32⟩
  | .hbm, ⟨17, _⟩ => ⟨S2016x16, .i32⟩
  | .hbm, ⟨18, _⟩ => ⟨S2016x16, .i32⟩
  | .hbm, ⟨19, _⟩ => ⟨S2016x16x1, .i32⟩
  | .hbm, ⟨20, _⟩ => ⟨S2016x1x16, .i32⟩
  | .hbm, ⟨21, _⟩ => ⟨S_, .i32⟩
  | .hbm, ⟨22, _⟩ => ⟨S2016x16x1, .i32⟩
  | .hbm, ⟨23, _⟩ => ⟨S2016x16x1, .i1⟩
  | .hbm, ⟨24, _⟩ => ⟨S_, .i32⟩
  | .hbm, ⟨25, _⟩ => ⟨S2016x16x1, .i32⟩
  | .hbm, ⟨26, _⟩ => ⟨S2016x16x1, .i32⟩
  | .hbm, ⟨27, _⟩ => ⟨S2016x16x1, .i32⟩
  | .hbm, ⟨28, _⟩ => ⟨S_, .i32⟩
  | .hbm, ⟨29, _⟩ => ⟨S2016x1x16, .i32⟩
  | .hbm, ⟨30, _⟩ => ⟨S2016x1x16, .i1⟩
  | .hbm, ⟨31, _⟩ => ⟨S_, .i32⟩
  | .hbm, ⟨32, _⟩ => ⟨S2016x1x16, .i32⟩
  | .hbm, ⟨33, _⟩ => ⟨S2016x1x16, .i32⟩
  | .hbm, ⟨34, _⟩ => ⟨S2016x1x16, .i32⟩
  | .hbm, ⟨35, _⟩ => ⟨S2016x16x16, .i32⟩
  | .hbm, ⟨36, _⟩ => ⟨S2016x16x16, .i32⟩
  | .hbm, ⟨37, _⟩ => ⟨S2016x16x16x1, .i32⟩
  | .hbm, ⟨38, _⟩ => ⟨S2016x16x16x1, .i32⟩
  | .hbm, ⟨39, _⟩ => ⟨S2016x16x16x2, .i32⟩
  | .hbm, ⟨40, _⟩ => ⟨S32x2016x16x16, .f32⟩
  | .hbm, ⟨41, _⟩ => ⟨S_, .f32⟩
  | .hbm, ⟨42, _⟩ => ⟨S32x2016, .f32⟩
  | .hbm, ⟨43, _⟩ => ⟨S_, .f32⟩
  | .hbm, ⟨44, _⟩ => ⟨S32x2016, .f32⟩
  | .hbm, ⟨45, _⟩ => ⟨S32x2016, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_c_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_v23 : Ref sig .tc := ⟨.hbm, 29, rfl⟩
abbrev main_v24 : Ref sig .tc := ⟨.hbm, 30, rfl⟩
abbrev main_c_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]

class Facts₀ : Prop where
  bcast_S2016_S2016x1_0 : S2016.BroadcastsInDim S2016x1 (![0] : Fin 1 → Fin S2016x1.rank)
  bcast_S16_S1x16_1 : S16.BroadcastsInDim S1x16 (![1] : Fin 1 → Fin S1x16.rank)
  bcast_S2016x1_S2016x16_0_1 : S2016x1.BroadcastsInDim S2016x16 (![0, 1] : Fin 2 → Fin S2016x16.rank)
  bcast_S1x16_S2016x16_0_1 : S1x16.BroadcastsInDim S2016x16 (![0, 1] : Fin 2 → Fin S2016x16.rank)
  bcast_S_S2016x1 : S_.BroadcastsInDim S2016x1 (![] : Fin 0 → Fin S2016x1.rank)
  bcast_S2016x16_S2016x16x1_0_1 : S2016x16.BroadcastsInDim S2016x16x1 (![0, 1] : Fin 2 → Fin S2016x16x1.rank)
  bcast_S2016x16_S2016x1x16_0_2 : S2016x16.BroadcastsInDim S2016x1x16 (![0, 2] : Fin 2 → Fin S2016x1x16.rank)
  bcast_S_S2016x16x1 : S_.BroadcastsInDim S2016x16x1 (![] : Fin 0 → Fin S2016x16x1.rank)
  bcast_S_S2016x1x16 : S_.BroadcastsInDim S2016x1x16 (![] : Fin 0 → Fin S2016x1x16.rank)
  bcast_S2016x16x1_S2016x16x16_0_1_2 : S2016x16x1.BroadcastsInDim S2016x16x16 (![0, 1, 2] : Fin 3 → Fin S2016x16x16.rank)
  bcast_S2016x1x16_S2016x16x16_0_1_2 : S2016x1x16.BroadcastsInDim S2016x16x16 (![0, 1, 2] : Fin 3 → Fin S2016x16x16.rank)
  bcast_S2016x16x16_S2016x16x16x1_0_1_2 : S2016x16x16.BroadcastsInDim S2016x16x16x1 (![0, 1, 2] : Fin 3 → Fin S2016x16x16x1.rank)
  concatenates_S2016x16x16x1_S2016x16x16x1_S2016x16x16x2_d3 : Shape.Concatenates [S2016x16x16x1, S2016x16x16x1] S2016x16x16x2 3
  reducesTo_S32x2016x16x16_S32x2016_d2_3 : S32x2016x16x16.ReducesTo [2, 3] S32x2016
  h_S_ : 0 < S_.numel
  bcast_S_S32x2016 : S_.BroadcastsInDim S32x2016 (![] : Fin 0 → Fin S32x2016.rank)
  gather_S32x2048x2048_S2016x16x16x2_S32x2016x16x16_0_12_n_n_12_3_3211_wf : GatherDims.WF S32x2048x2048 S2016x16x16x2 S32x2016x16x16 [0] [1, 2] [] [1, 2] [] 3 ![32, 1, 1]

variable [Facts₀]

def gather_S32x2048x2048_S2016x16x16x2_S32x2016x16x16_0_12_n_n_12_3_3211 : GatherDims S32x2048x2048 S2016x16x16x2 S32x2016x16x16 where
  offsetDims := [0]
  collapsedSliceDims := [1, 2]
  operandBatchingDims := []
  startIndicesBatchingDims := []
  startIndexMap := [1, 2]
  indexVectorDim := 3
  sliceSizes := ![32, 1, 1]
  wf := gather_S32x2048x2048_S2016x16x16x2_S32x2016x16x16_0_12_n_n_12_3_3211_wf

class Facts : Prop extends Facts₀ where

variable [Facts]
-- ==== Proof.LibSlotRead.lean ====
/-
  A buffer of two slots read after a write into one of them. The buffer has shape [2, 160, 256]: two slots, each a
  160 × 256 plane. A band is a 159 × 159 square; band traffic uses the top-left 159 × 159 corner of a slot. A write of a
  band into slot `s` goes through the slot's corner `[s, 0:159, 0:159]` with the leading unit axis dropped, so its
  payload is indexed by (row, column). A load of slot `s` reads the corner `[s, 0:159, 0:159]` at its own shape
  [1, 159, 159].

  Two facts carry a load past one write. A load of the slot just written returns the payload: element (0, r, c) of the
  load is element (r, c) of the band, because both sit at place (s, r, c) of the buffer. A load of the other slot does not
  see the write: every place the write touches has first coordinate `s'`, every place the load reads has first
  coordinate `s ≠ s'`. Both are proved first for a view of the buffer and any offsets; then stated at the two slots'
  literal offsets, twice: through a memref's slice with the unit axis squeezed away (the spelling of a program), and
  with every projection already computed (the corner's sizes written out, the squeezed slice's view written as the
  re-indexed restriction of the buffer's view that it is), for a goal in which they have been computed.
-/
import Idealize.ShloMosaic.Lib.Pipeline.Value
import Idealize.ShloMosaic.Lib.ValueIdx

namespace Cert.LibSlotRead

open Idealize.ShloMosaic Idealize.ShloMosaic.ValueIdx

/-- The buffer: two slots of 160 × 256. -/
abbrev SB : Shape := ⟨3, ![2, 160, 256]⟩
/-- One slot's corner as a load reads it: a unit leading axis, then the band. -/
abbrev S1 : Shape := ⟨3, ![1, 159, 159]⟩
/-- The band: 159 × 159. -/
abbrev S2 : Shape := ⟨2, ![159, 159]⟩

variable {sig : RefSig} {κ : Kind} {sp : Space} {Val : EltTy → Type}

/-! ## For a view of the buffer, at any offsets -/

/-- The view of a band-sized corner (at any offsets) re-indexed by the band's shape reads the buffer at the corner's
    place for `(0, r, c)`: dropping the unit axis only forgets the coordinate `0`. -/
theorem read_corner (v : View sig κ sp SB .f32) (off : Fin 3 → ℕ) (inb : ∀ a, off a + S1.size a ≤ SB.size a)
    (h : S2.numel = (Rect.unit (s := SB) off S1.size inb).shape.numel) (g : v.ty.Contents Val) (x : S2.Idx) :
    ((v.slice (Rect.unit (s := SB) off S1.size inb)).reshape S2 h).read Val g x
      = v.read Val g ((Rect.unit (s := SB) off S1.size inb).emb (Fin.cons ⟨0, Nat.one_pos⟩ x)) := by
  have h1 : ((v.slice (Rect.unit (s := SB) off S1.size inb)).reshape S2 h).read Val g x
      = v.read Val g ((Rect.unit (s := SB) off S1.size inb).emb (Shape.reshapeEquiv h x)) := rfl
  rw [h1, Shape.reshapeEquiv_cons_one]

/-- A LOAD OF THE CORNER JUST WRITTEN, at any offsets: element `(0, r, c)` of the load is element `(r, c)` of the
    payload. The load's place for `(0, r, c)` and the write's place for `(r, c)` are the same place of the buffer, and
    a write read back at a place it wrote gives the payload there. -/
theorem readAt_write_same (v : View sig κ sp SB .f32) (off : Fin 3 → ℕ)
    (inb inb' : ∀ a, off a + S1.size a ≤ SB.size a)
    (h : S2.numel = (Rect.unit (s := SB) off S1.size inb').shape.numel)
    (f : v.ty.Contents Val) (w : S2.Idx → Val .f32) :
    View.readAt Val v (Rect.unit (s := SB) off S1.size inb).toLoadRect
        (View.write Val ((v.slice (Rect.unit (s := SB) off S1.size inb')).reshape S2 h) f w Finset.univ)
      = fun y => w (ix2 ⟨(y 1).val, (y 1).isLt⟩ ⟨(y 2).val, (y 2).isLt⟩) := by
  funext y
  rw [View.readAt_apply]
  have e : (Rect.unit (s := SB) off S1.size inb).toLoadRect.idx y
      = (Rect.unit (s := SB) off S1.size inb').emb
          (Fin.cons ⟨0, Nat.one_pos⟩ (ix2 ⟨(y 1).val, (y 1).isLt⟩ ⟨(y 2).val, (y 2).isLt⟩)) := by
    funext a
    apply Fin.ext
    match a with
    | ⟨0, _⟩ =>
      show off 0 + 1 * (y 0).val = off 0 + 1 * 0
      have h0 : (y 0).val < 1 := (y 0).isLt
      omega
    | ⟨1, _⟩ => rfl
    | ⟨2, _⟩ => rfl
  rw [e, ← read_corner v off inb' h]
  exact View.read_write_of_mem (Val := Val)
    (v := (v.slice (Rect.unit (s := SB) off S1.size inb')).reshape S2 h) f w (Finset.mem_univ _)

/-- A LOAD OF ANOTHER CORNER: when the two corners start at different first coordinates, the load does not see the
    write. Every place the write touches has the write's first offset as its first coordinate (the corner is one
    slot deep), every place the load reads has the load's. -/
theorem readAt_write_other (v : View sig κ sp SB .f32) (off off' : Fin 3 → ℕ) (hne : off 0 ≠ off' 0)
    (inb : ∀ a, off a + S1.size a ≤ SB.size a) (inb' : ∀ a, off' a + S1.size a ≤ SB.size a)
    (h : S2.numel = (Rect.unit (s := SB) off' S1.size inb').shape.numel)
    (f : v.ty.Contents Val) (w : S2.Idx → Val .f32) :
    View.readAt Val v (Rect.unit (s := SB) off S1.size inb).toLoadRect
        (View.write Val ((v.slice (Rect.unit (s := SB) off' S1.size inb')).reshape S2 h) f w Finset.univ)
      = View.readAt Val v (Rect.unit (s := SB) off S1.size inb).toLoadRect f := by
  funext y
  rw [View.readAt_apply, View.readAt_apply]
  apply View.read_congr_at
  apply View.write_of_not_mem
  intro hm
  obtain ⟨x, _, hx⟩ := Finset.mem_map.mp hm
  have e : ((v.slice (Rect.unit (s := SB) off' S1.size inb')).reshape S2 h).emb x
      = v.emb ((Rect.unit (s := SB) off' S1.size inb').emb (Shape.reshapeEquiv h x)) := rfl
  rw [e, Shape.reshapeEquiv_cons_one] at hx
  have hi := v.emb.injective hx
  have h0 := congrArg (fun i : SB.Idx => (i 0 : ℕ)) hi
  have h4 : off' 0 + 1 * 0 = off 0 + 1 * (y 0).val := h0
  have hy : (y 0).val < 1 := (y 0).isLt
  exact hne (by omega)

/-! ## At the two slots, through a memref's slice with the unit axis squeezed away -/

/-- Slot 0 loaded after a write into slot 0: the payload. -/
theorem readAt_slot0_write_slot0 (M : Memref sig κ sp SB .f32)
    (inb0 inb0' : ∀ a, (![0, 0, 0] : Fin 3 → ℕ) a + S1.size a ≤ SB.size a) (hr) (hq : S1.Squeezes S2)
    (f : M.view.ty.Contents Val) (w : S2.Idx → Val .f32) :
    View.readAt Val M.view (Rect.unit (s := SB) ![0, 0, 0] S1.size inb0).toLoadRect
        (View.write Val ((M.slice (Rect.unit (s := SB) ![0, 0, 0] S1.size inb0') hr).squeeze S2 hq).view f w Finset.univ)
      = fun y => w (ix2 ⟨(y 1).val, (y 1).isLt⟩ ⟨(y 2).val, (y 2).isLt⟩) :=
  readAt_write_same M.view _ inb0 inb0' hq.numel_eq f w

/-- Slot 1 loaded after a write into slot 1: the payload. -/
theorem readAt_slot1_write_slot1 (M : Memref sig κ sp SB .f32)
    (inb1 inb1' : ∀ a, (![1, 0, 0] : Fin 3 → ℕ) a + S1.size a ≤ SB.size a) (hr) (hq : S1.Squeezes S2)
    (f : M.view.ty.Contents Val) (w : S2.Idx → Val .f32) :
    View.readAt Val M.view (Rect.unit (s := SB) ![1, 0, 0] S1.size inb1).toLoadRect
        (View.write Val ((M.slice (Rect.unit (s := SB) ![1, 0, 0] S1.size inb1') hr).squeeze S2 hq).view f w Finset.univ)
      = fun y => w (ix2 ⟨(y 1).val, (y 1).isLt⟩ ⟨(y 2).val, (y 2).isLt⟩) :=
  readAt_write_same M.view _ inb1 inb1' hq.numel_eq f w

/-- Slot 0 loaded after a write into slot 1: what slot 0 held before. -/
theorem readAt_slot0_write_slot1 (M : Memref sig κ sp SB .f32)
    (inb0 : ∀ a, (![0, 0, 0] : Fin 3 → ℕ) a + S1.size a ≤ SB.size a)
    (inb1 : ∀ a, (![1, 0, 0] : Fin 3 → ℕ) a + S1.size a ≤ SB.size a) (hr) (hq : S1.Squeezes S2)
    (f : M.view.ty.Contents Val) (w : S2.Idx → Val .f32) :
    View.readAt Val M.view (Rect.unit (s := SB) ![0, 0, 0] S1.size inb0).toLoadRect
        (View.write Val ((M.slice (Rect.unit (s := SB) ![1, 0, 0] S1.size inb1) hr).squeeze S2 hq).view f w Finset.univ)
      = View.readAt Val M.view (Rect.unit (s := SB) ![0, 0, 0] S1.size inb0).toLoadRect f :=
  readAt_write_other M.view _ _ (by decide) inb0 inb1 hq.numel_eq f w

/-- Slot 1 loaded after a write into slot 0: what slot 1 held before. -/
theorem readAt_slot1_write_slot0 (M : Memref sig κ sp SB .f32)
    (inb1 : ∀ a, (![1, 0, 0] : Fin 3 → ℕ) a + S1.size a ≤ SB.size a)
    (inb0 : ∀ a, (![0, 0, 0] : Fin 3 → ℕ) a + S1.size a ≤ SB.size a) (hr) (hq : S1.Squeezes S2)
    (f : M.view.ty.Contents Val) (w : S2.Idx → Val .f32) :
    View.readAt Val M.view (Rect.unit (s := SB) ![1, 0, 0] S1.size inb1).toLoadRect
        (View.write Val ((M.slice (Rect.unit (s := SB) ![0, 0, 0] S1.size inb0) hr).squeeze S2 hq).view f w Finset.univ)
      = View.readAt Val M.view (Rect.unit (s := SB) ![1, 0, 0] S1.size inb1).toLoadRect f :=
  readAt_write_other M.view _ _ (by decide) inb1 inb0 hq.numel_eq f w

/-! ## At the two slots, every projection computed

The same four facts with the corner's sizes written out and the squeezed slice's view written as the re-indexed
restriction of the buffer's view it is. The two spellings are equal by definition; a rewriting step that compares terms
only up to their spelling needs the one its goal is in. -/

/-- Slot 0 loaded after a write into slot 0: the payload. -/
theorem nf_slot0_write_slot0 (v : View sig κ sp SB .f32)
    (inb0 inb0' : ∀ a, (![0, 0, 0] : Fin 3 → ℕ) a + (![1, 159, 159] : Fin 3 → ℕ) a ≤ SB.size a)
    (h : S2.numel = (Rect.unit (s := SB) ![0, 0, 0] ![1, 159, 159] inb0').shape.numel)
    (f : v.ty.Contents Val) (w : S2.Idx → Val .f32) :
    View.readAt Val v (Rect.unit (s := SB) ![0, 0, 0] ![1, 159, 159] inb0).toLoadRect
        (View.write Val ((v.slice (Rect.unit (s := SB) ![0, 0, 0] ![1, 159, 159] inb0')).reshape S2 h) f w Finset.univ)
      = fun y => w (ix2 ⟨(y 1).val, (y 1).isLt⟩ ⟨(y 2).val, (y 2).isLt⟩) :=
  readAt_write_same v _ inb0 inb0' h f w

/-- Slot 1 loaded after a write into slot 1: the payload. -/
theorem nf_slot1_write_slot1 (v : View sig κ sp SB .f32)
    (inb1 inb1' : ∀ a, (![1, 0, 0] : Fin 3 → ℕ) a + (![1, 159, 159] : Fin 3 → ℕ) a ≤ SB.size a)
    (h : S2.numel = (Rect.unit (s := SB) ![1, 0, 0] ![1, 159, 159] inb1').shape.numel)
    (f : v.ty.Contents Val) (w : S2.Idx → Val .f32) :
    View.readAt Val v (Rect.unit (s := SB) ![1, 0, 0] ![1, 159, 159] inb1).toLoadRect
        (View.write Val ((v.slice (Rect.unit (s := SB) ![1, 0, 0] ![1, 159, 159] inb1')).reshape S2 h) f w Finset.univ)
      = fun y => w (ix2 ⟨(y 1).val, (y 1).isLt⟩ ⟨(y 2).val, (y 2).isLt⟩) :=
  readAt_write_same v _ inb1 inb1' h f w

/-- Slot 0 loaded after a write into slot 1: what slot 0 held before. -/
theorem nf_slot0_write_slot1 (v : View sig κ sp SB .f32)
    (inb0 : ∀ a, (![0, 0, 0] : Fin 3 → ℕ) a + (![1, 159, 159] : Fin 3 → ℕ) a ≤ SB.size a)
    (inb1 : ∀ a, (![1, 0, 0] : Fin 3 → ℕ) a + (![1, 159, 159] : Fin 3 → ℕ) a ≤ SB.size a)
    (h : S2.numel = (Rect.unit (s := SB) ![1, 0, 0] ![1, 159, 159] inb1).shape.numel)
    (f : v.ty.Contents Val) (w : S2.Idx → Val .f32) :
    View.readAt Val v (Rect.unit (s := SB) ![0, 0, 0] ![1, 159, 159] inb0).toLoadRect
        (View.write Val ((v.slice (Rect.unit (s := SB) ![1, 0, 0] ![1, 159, 159] inb1)).reshape S2 h) f w Finset.univ)
      = View.readAt Val v (Rect.unit (s := SB) ![0, 0, 0] ![1, 159, 159] inb0).toLoadRect f :=
  readAt_write_other v _ _ (by decide) inb0 inb1 h f w

/-- Slot 1 loaded after a write into slot 0: what slot 1 held before. -/
theorem nf_slot1_write_slot0 (v : View sig κ sp SB .f32)
    (inb1 : ∀ a, (![1, 0, 0] : Fin 3 → ℕ) a + (![1, 159, 159] : Fin 3 → ℕ) a ≤ SB.size a)
    (inb0 : ∀ a, (![0, 0, 0] : Fin 3 → ℕ) a + (![1, 159, 159] : Fin 3 → ℕ) a ≤ SB.size a)
    (h : S2.numel = (Rect.unit (s := SB) ![0, 0, 0] ![1, 159, 159] inb0).shape.numel)
    (f : v.ty.Contents Val) (w : S2.Idx → Val .f32) :
    View.readAt Val v (Rect.unit (s := SB) ![1, 0, 0] ![1, 159, 159] inb1).toLoadRect
        (View.write Val ((v.slice (Rect.unit (s := SB) ![0, 0, 0] ![1, 159, 159] inb0)).reshape S2 h) f w Finset.univ)
      = View.readAt Val v (Rect.unit (s := SB) ![1, 0, 0] ![1, 159, 159] inb1).toLoadRect f :=
  readAt_write_other v _ _ (by decide) inb1 inb0 h f w

end Cert.LibSlotRead
-- ==== Proof.LibBandRead.lean ====
/-
  A square band of an image, cut out of a batch of images and read with its unit axis dropped.

  The batch is an array of 32 images, 2048 on a side. A band is the 159 × 159 square of image `b` whose corner is at
  row `r0`, column `c0`: as a rectangle of the batch it has offsets `(b, r0, c0)`, sizes `(1, 159, 159)` and unit
  strides. Dropping the leading axis of size one does not move any element, so entry `(p, q)` of the band is the
  batch's entry `(b, r0 + p, c0 + q)`.
-/
import Idealize.ShloMosaic.Lib.ValueIdx
import Idealize.ShloMosaic.Lib.Pipeline.Value

noncomputable section

namespace Cert.LibBandRead

open Idealize.ShloMosaic Idealize.ShloMosaic.ValueIdx

/-- The batch of images. -/
abbrev SX : Shape := ⟨3, ![32, 2048, 2048]⟩
/-- A band as a rectangle of the batch: one image, 159 rows, 159 columns. -/
abbrev S1 : Shape := ⟨3, ![1, 159, 159]⟩
/-- A band as a square. -/
abbrev S2 : Shape := ⟨2, ![159, 159]⟩

/-- A band's image is one of the 32: its rectangle lies inside the batch. -/
theorem image_lt {off : Fin 3 → ℕ} {b r0 c0 : ℕ} (h : off = ![b, r0, c0])
    (inb : ∀ a, off a + S1.size a ≤ SX.size a) : b < 32 := by
  subst h
  have h0 : b + 1 ≤ 32 := inb 0
  omega

/-- Row `p` of a band is a row of the image: its rectangle lies inside the batch. -/
theorem row_lt {off : Fin 3 → ℕ} {b r0 c0 : ℕ} (h : off = ![b, r0, c0])
    (inb : ∀ a, off a + S1.size a ≤ SX.size a) (p : Fin 159) : r0 + p.val < 2048 := by
  subst h
  have h1 : r0 + 159 ≤ 2048 := inb 1
  have hp := p.isLt
  omega

/-- Column `q` of a band is a column of the image: its rectangle lies inside the batch. -/
theorem col_lt {off : Fin 3 → ℕ} {b r0 c0 : ℕ} (h : off = ![b, r0, c0])
    (inb : ∀ a, off a + S1.size a ≤ SX.size a) (q : Fin 159) : c0 + q.val < 2048 := by
  subst h
  have h2 : c0 + 159 ≤ 2048 := inb 2
  have hq := q.isLt
  omega

/-- The band of image `b` with corner `(r0, c0)`, cut out of the batch and read with its unit axis dropped: entry
    `(p, q)` is the batch's entry `(b, r0 + p, c0 + q)`. -/
theorem read_band {sig : RefSig} {κ : Kind} {sp : Space} {Val : EltTy → Type}
    (M : Memref sig κ sp SX .f32) (off : Fin 3 → ℕ) (b r0 c0 : ℕ) (h : off = ![b, r0, c0])
    (inb : ∀ a, off a + S1.size a ≤ SX.size a) (hr) (hq : S1.Squeezes S2) (f : M.view.ty.Contents Val)
    (p q : Fin 159) :
    ((M.slice (Rect.unit (s := SX) off S1.size inb) hr).squeeze S2 hq).view.read Val f (ix2 p q)
      = M.view.read Val f
          (ix3 (⟨b, image_lt h inb⟩ : Fin 32) (⟨r0 + p.val, row_lt h inb p⟩ : Fin 2048)
            (⟨c0 + q.val, col_lt h inb q⟩ : Fin 2048)) := by
  subst h
  have h1 : ((M.slice (Rect.unit (s := SX) ![b, r0, c0] S1.size inb) hr).squeeze S2 hq).view.read Val f (ix2 p q)
      = M.view.read Val f
          ((Rect.unit (s := SX) ![b, r0, c0] S1.size inb).emb (Shape.reshapeEquiv hq.numel_eq (ix2 p q))) := rfl
  rw [h1, Shape.reshapeEquiv_cons_one]
  congr 1
  funext a
  apply Fin.ext
  rw [Rect.emb_apply]
  match a with
  | ⟨0, _⟩ => show b + 1 * 0 = b; omega
  | ⟨1, _⟩ => show r0 + 1 * p.val = r0 + p.val; omega
  | ⟨2, _⟩ => show c0 + 1 * q.val = c0 + q.val; omega

/-! ## The same with every projection computed

The band's rectangle with its sizes written out, and the band's view written as what it is: the restriction of the
batch's view to the rectangle, re-indexed by the square. The two spellings are equal by definition; a rewriting step
that compares terms only up to their spelling needs the one its goal is in. -/

/-- The band read through a view of the batch: entry `(p, q)` is the view's entry `(b, r0 + p, c0 + q)`. -/
theorem nf_read_band {sig : RefSig} {κ : Kind} {sp : Space} {Val : EltTy → Type}
    (v : View sig κ sp SX .f32) (off : Fin 3 → ℕ) (b r0 c0 : ℕ) (h : off = ![b, r0, c0])
    (inb : ∀ a, off a + (![1, 159, 159] : Fin 3 → ℕ) a ≤ SX.size a)
    (hn : S2.numel = (Rect.unit (s := SX) off ![1, 159, 159] inb).shape.numel) (f : v.ty.Contents Val)
    (p q : Fin 159) :
    View.read Val ((v.slice (Rect.unit (s := SX) off ![1, 159, 159] inb)).reshape S2 hn) f (ix2 p q)
      = v.read Val f
          (ix3 (⟨b, image_lt h inb⟩ : Fin 32) (⟨r0 + p.val, row_lt h inb p⟩ : Fin 2048)
            (⟨c0 + q.val, col_lt h inb q⟩ : Fin 2048)) := by
  subst h
  have h1 : View.read Val ((v.slice (Rect.unit (s := SX) ![b, r0, c0] ![1, 159, 159] inb)).reshape S2 hn) f (ix2 p q)
      = v.read Val f
          ((Rect.unit (s := SX) ![b, r0, c0] ![1, 159, 159] inb).emb (Shape.reshapeEquiv hn (ix2 p q))) := rfl
  rw [h1, Shape.reshapeEquiv_cons_one]
  congr 1
  funext a
  apply Fin.ext
  rw [Rect.emb_apply]
  match a with
  | ⟨0, _⟩ => show b + 1 * 0 = b; omega
  | ⟨1, _⟩ => show r0 + 1 * p.val = r0 + p.val; omega
  | ⟨2, _⟩ => show c0 + 1 * q.val = c0 + q.val; omega

/-- The same for the band as a transfer that moves its source's elements as they are delivers it. -/
theorem nf_read_band_same {sig : RefSig} {κ : Kind} {sp : Space} {Val : EltTy → Type}
    (v : View sig κ sp SX .f32) (off : Fin 3 → ℕ) (b r0 c0 : ℕ) (h : off = ![b, r0, c0])
    (inb : ∀ a, off a + (![1, 159, 159] : Fin 3 → ℕ) a ≤ SX.size a)
    (hn : S2.numel = (Rect.unit (s := SX) off ![1, 159, 159] inb).shape.numel) (f : v.ty.Contents Val)
    (p q : Fin 159) :
    (ReadAs.same : ReadAs Val S2 .f32 S2 .f32).apply
        (View.read Val ((v.slice (Rect.unit (s := SX) off ![1, 159, 159] inb)).reshape S2 hn) f) (ix2 p q)
      = v.read Val f
          (ix3 (⟨b, image_lt h inb⟩ : Fin 32) (⟨r0 + p.val, row_lt h inb p⟩ : Fin 2048)
            (⟨c0 + q.val, col_lt h inb q⟩ : Fin 2048)) :=
  nf_read_band v off b r0 c0 h inb hn f p q

/-! ## Two facts that hold by definition -/

/-- A transfer that moves its source's elements as they are delivers what the source's view reads. -/
theorem read_same {Val : EltTy → Type} {s : Shape} {e : EltTy} (w : s.Idx → Val e) :
    (ReadAs.same : ReadAs Val s e s e).apply w = w := rfl

/-- A whole buffer reads as its contents. -/
theorem read_whole {sig : RefSig} {κ : Kind} {Val : EltTy → Type} (r : Ref sig κ) (f : r.ty.Contents Val) :
    (Memref.whole r : Memref sig κ _ _ _).view.read Val f = f := rfl

end Cert.LibBandRead

end
-- ==== Proof.KernelBody.lean ====
/-
  The kernel body's run, with what it leaves in the output block named as a function of the image batch.

  At grid point `i` the body works on image `i 0`. It brings 14 square bands of the image (159 × 159, band `t` with its
  corner at row `144 t`, column `144 t + 17`) from the array left in HBM into a two-slot scratch buffer by transfers of
  its own — band `t` into slot `t mod 2`, the next band requested before the current one is used —, loads each band
  back from its slot, and stores one block: the 14 masked lane sums joined, scaled and padded (`blockF`).

  The run is stated twice. `kernelRun0_Araw` takes the scratch buffer's contents at entry, `fs0`, as a parameter: the
  value the run finds for the stored block is then a term that mentions `fs0`, because each band is read back out of
  a scratch buffer that was written over `fs0`. `raw_eq` shows that this term does not depend on `fs0` at all: a
  slot read after a transfer into the same slot is the delivered band, and a transfer into the other slot is not
  seen. `kernelRun0_A` is then the run at any entry contents of the scratch buffer, with the block `blockF` as the
  one piece the output's staging buffer ends with.
-/
import proofs.«101728_j26792005992502_2_alg».proof.Proof.Gen.Kernel.Frame.Runs
import proofs.«101728_j26792005992502_2_alg».proof.Proof.LibSlotRead
import proofs.«101728_j26792005992502_2_alg».proof.Proof.LibBandRead
import Idealize.ShloMosaic.Lib.ValueIdx
import Idealize.ShloMosaic.Lib.Pipeline.Value

-- membership in a rectangle of production extents (`View.cover_of_tiled`): the elaborator's structural look
-- recurses once per coordinate of the long axes
set_option maxRecDepth 16384

noncomputable section

namespace Cert.Kernel.GenP

open Cert.Kernel Cert.Kernel.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The band, the chunk and the block, for any float type -/

/-- The image a grid point works on: the grid has one axis of extent 32. -/
def imgOf (i : grid0.Coords) : Fin 32 := ⟨(i 0).val, (i 0).isLt⟩

/-- The band of image `b` that stretch `t` of the diagonal reads: entry `(0, r, q)` is the image's entry at row
    `144 t + r`, column `144 t + 17 + q`. -/
def bandF (x : S32x2048x2048.Idx → F .f32) (b : Fin 32) (t : Fin 14) : Vec F S1x159x159 .f32 :=
  fun y =>
    have h1 : (y 1).val < 159 := (y 1).isLt
    have h2 : (y 2).val < 159 := (y 2).isLt
    x (ix3 b ⟨144 * t.val + (y 1).val, by omega⟩ ⟨144 * t.val + 17 + (y 2).val, by omega⟩)

/-- Image `b`'s block: the 14 chunks (masked lane sums of the 16 row-shifted copies of each band) joined, scaled by
    `1/256` and padded with zeros to 2048 lanes. -/
def blockF (x : S32x2048x2048.Idx → F .f32) (b : Fin 32) : FVec F S1x1x2048 .f32 :=
  k0_pay40 k0_pay1 (k0_pay6 k0_pay1 (bandF x b 0)) (k0_pay6 k0_pay1 (bandF x b 1)) (k0_pay6 k0_pay1 (bandF x b 2))
    (k0_pay6 k0_pay1 (bandF x b 3)) (k0_pay6 k0_pay1 (bandF x b 4)) (k0_pay6 k0_pay1 (bandF x b 5))
    (k0_pay6 k0_pay1 (bandF x b 6)) (k0_pay6 k0_pay1 (bandF x b 7)) (k0_pay6 k0_pay1 (bandF x b 8))
    (k0_pay6 k0_pay1 (bandF x b 9)) (k0_pay6 k0_pay1 (bandF x b 10)) (k0_pay6 k0_pay1 (bandF x b 11))
    (k0_pay6 k0_pay1 (bandF x b 12)) (k0_pay38 (bandF x b 13)) (k0_pay39 (bandF x b 13))

/-! ## The run from given scratch contents -/

set_option maxHeartbeats 1084000 in set_option sl_exec.dmaWindow true in set_option sl_exec.dmaWindowSet true in
/-- The body's run from a scratch buffer holding `fs0`: the pieces the output's staging buffer ends with are found by
    the run, and may mention `fs0`. -/
noncomputable def kernelRun0_Araw (c : Dev nD) (i : grid0.Coords) (arg2 : Memref sig .tc .vmem S1x1x2048 .f32) (harg2 : arg2.IsWhole) (arg3 : Memref sig .tc .vmem S2x160x256 .f32) (harg3 : arg3.IsWhole)
     (fh0 : HbBuf0 (F := F) c hbM0_0) (fs0 : arg3.view.ty.Contents (Elt F)) :
    { L0 : List (View.Piece (Elt F) S1x1x2048 .f32) //
      ∀ (W : Waits sig Unit) (K : PUnit → sProp 𝕄),
        iprop((∃ d, owns (c : Thread nD τ) arg2 fullShare d) ∗ (arg3.view.loc (c : Thread nD τ) ↦[arg3.view.set]{fullShare} fs0) ∗ semVal ((c : Thread nD τ), SemLoc.dma 2) 0 ∗ semVal ((c : Thread nD τ), SemLoc.dma 3) 0 ∗ hbPt0 c hbM0_0 fh0 ∗ owes (c : Thread nD τ) 0 W
            ∗ (iprop((∃ f, arg2.view.loc (c : Thread nD τ) ↦[arg2.view.set]{fullShare} arg2.view.writes (Elt F) f L0) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ (∃ W', owes (c : Thread nD τ) 0 W')) -∗ K ⟨⟩))
          ⊢ wp frame (wpE (defs₀ (F := F)) Variants.none c none) Set.univ (cc0__diamond_kernel i (Memref.whole main_arg0) (Memref.isWhole_whole _) arg2 harg2 arg3 harg3 cc0_scratch1) K } := by
  refine ⟨?_, fun W K => ?run⟩
  case run =>
    simp only [cc0__diamond_kernel_eq_skeleton]; unfold cc0__diamond_kernel_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%d0, %f0, -, H0⟩, HS0, Hq0, Hq1, Hh0, HW, Hk⟩
    sl_exec
    sl_step
    iapply Hk
    isplitl [H0]; · iexists _; iexact H0
    isplitl [HS0]
    · iexists _, _; isplitr; swap; · iexact HS0
      ipureintro; rfl
    isplitl [Hq0]; · iexact Hq0
    isplitl [Hq1]; · iexact Hq1
    isplitl [Hh0]; · iexact Hh0
    iexists _; iexact HW

/-! ## Where each transfer reads the image -/

theorem off1_eq (i : grid0.Coords) : k0_off1 i = ![(imgOf i).val, 0, 17] := by
  unfold k0_off1
  have h : (BitVec.ofNat 32 (i 0).val).toNat = (i 0).val := by
    rw [BitVec.toNat_ofNat]; exact Nat.mod_eq_of_lt (lt_of_lt_of_le (i 0).isLt (by decide))
  simp only [h]
  rfl
theorem off2_eq (i : grid0.Coords) : k0_off2 i = ![(imgOf i).val, 144, 161] := by
  unfold k0_off2
  have h : (BitVec.ofNat 32 (i 0).val).toNat = (i 0).val := by
    rw [BitVec.toNat_ofNat]; exact Nat.mod_eq_of_lt (lt_of_lt_of_le (i 0).isLt (by decide))
  simp only [h]
  rfl
theorem off3_eq (i : grid0.Coords) : k0_off3 i = ![(imgOf i).val, 288, 305] := by
  unfold k0_off3
  have h : (BitVec.ofNat 32 (i 0).val).toNat = (i 0).val := by
    rw [BitVec.toNat_ofNat]; exact Nat.mod_eq_of_lt (lt_of_lt_of_le (i 0).isLt (by decide))
  simp only [h]
  rfl
theorem off4_eq (i : grid0.Coords) : k0_off4 i = ![(imgOf i).val, 432, 449] := by
  unfold k0_off4
  have h : (BitVec.ofNat 32 (i 0).val).toNat = (i 0).val := by
    rw [BitVec.toNat_ofNat]; exact Nat.mod_eq_of_lt (lt_of_lt_of_le (i 0).isLt (by decide))
  simp only [h]
  rfl
theorem off5_eq (i : grid0.Coords) : k0_off5 i = ![(imgOf i).val, 576, 593] := by
  unfold k0_off5
  have h : (BitVec.ofNat 32 (i 0).val).toNat = (i 0).val := by
    rw [BitVec.toNat_ofNat]; exact Nat.mod_eq_of_lt (lt_of_lt_of_le (i 0).isLt (by decide))
  simp only [h]
  rfl
theorem off6_eq (i : grid0.Coords) : k0_off6 i = ![(imgOf i).val, 720, 737] := by
  unfold k0_off6
  have h : (BitVec.ofNat 32 (i 0).val).toNat = (i 0).val := by
    rw [BitVec.toNat_ofNat]; exact Nat.mod_eq_of_lt (lt_of_lt_of_le (i 0).isLt (by decide))
  simp only [h]
  rfl
theorem off7_eq (i : grid0.Coords) : k0_off7 i = ![(imgOf i).val, 864, 881] := by
  unfold k0_off7
  have h : (BitVec.ofNat 32 (i 0).val).toNat = (i 0).val := by
    rw [BitVec.toNat_ofNat]; exact Nat.mod_eq_of_lt (lt_of_lt_of_le (i 0).isLt (by decide))
  simp only [h]
  rfl
theorem off8_eq (i : grid0.Coords) : k0_off8 i = ![(imgOf i).val, 1008, 1025] := by
  unfold k0_off8
  have h : (BitVec.ofNat 32 (i 0).val).toNat = (i 0).val := by
    rw [BitVec.toNat_ofNat]; exact Nat.mod_eq_of_lt (lt_of_lt_of_le (i 0).isLt (by decide))
  simp only [h]
  rfl
theorem off9_eq (i : grid0.Coords) : k0_off9 i = ![(imgOf i).val, 1152, 1169] := by
  unfold k0_off9
  have h : (BitVec.ofNat 32 (i 0).val).toNat = (i 0).val := by
    rw [BitVec.toNat_ofNat]; exact Nat.mod_eq_of_lt (lt_of_lt_of_le (i 0).isLt (by decide))
  simp only [h]
  rfl
theorem off10_eq (i : grid0.Coords) : k0_off10 i = ![(imgOf i).val, 1296, 1313] := by
  unfold k0_off10
  have h : (BitVec.ofNat 32 (i 0).val).toNat = (i 0).val := by
    rw [BitVec.toNat_ofNat]; exact Nat.mod_eq_of_lt (lt_of_lt_of_le (i 0).isLt (by decide))
  simp only [h]
  rfl
theorem off11_eq (i : grid0.Coords) : k0_off11 i = ![(imgOf i).val, 1440, 1457] := by
  unfold k0_off11
  have h : (BitVec.ofNat 32 (i 0).val).toNat = (i 0).val := by
    rw [BitVec.toNat_ofNat]; exact Nat.mod_eq_of_lt (lt_of_lt_of_le (i 0).isLt (by decide))
  simp only [h]
  rfl
theorem off12_eq (i : grid0.Coords) : k0_off12 i = ![(imgOf i).val, 1584, 1601] := by
  unfold k0_off12
  have h : (BitVec.ofNat 32 (i 0).val).toNat = (i 0).val := by
    rw [BitVec.toNat_ofNat]; exact Nat.mod_eq_of_lt (lt_of_lt_of_le (i 0).isLt (by decide))
  simp only [h]
  rfl
theorem off13_eq (i : grid0.Coords) : k0_off13 i = ![(imgOf i).val, 1728, 1745] := by
  unfold k0_off13
  have h : (BitVec.ofNat 32 (i 0).val).toNat = (i 0).val := by
    rw [BitVec.toNat_ofNat]; exact Nat.mod_eq_of_lt (lt_of_lt_of_le (i 0).isLt (by decide))
  simp only [h]
  rfl
theorem off14_eq (i : grid0.Coords) : k0_off14 i = ![(imgOf i).val, 1872, 1889] := by
  unfold k0_off14
  have h : (BitVec.ofNat 32 (i 0).val).toNat = (i 0).val := by
    rw [BitVec.toNat_ofNat]; exact Nat.mod_eq_of_lt (lt_of_lt_of_le (i 0).isLt (by decide))
  simp only [h]
  rfl

/-- A delivered band at `(p, q)`: the transfer's source is the corner of the image at the transfer's offsets. -/
theorem src_at (c : Dev nD) (fh0 : HbBuf0 (F := F) c hbM0_0) (b : Fin 32) (r0 c0 : ℕ) (off : Fin 3 → ℕ) (h : off = ![b.val, r0, c0])
    (inb : ∀ a, off a + S1x159x159.size a ≤ S32x2048x2048.size a) (hr) (hq : S1x159x159.Squeezes S159x159) (p q : Fin 159) :
    ReadAs.same.apply (View.read (Elt F) ((hbM0_0.slice (Rect.unit (s := S32x2048x2048) off S1x159x159.size inb) hr).squeeze S159x159 hq).view fh0) (ix2 p q)
      = fh0 (ix3 b ⟨r0 + p.val, Cert.LibBandRead.row_lt h inb p⟩ ⟨c0 + q.val, Cert.LibBandRead.col_lt h inb q⟩) := by
  rw [Cert.LibBandRead.read_same, Cert.LibBandRead.read_band hbM0_0 off b.val r0 c0 h inb hr hq fh0 p q]
  rfl

/-- A delivered band at `(p, q)`, in the spelling the collapsed run shows: the transfer's source is the corner of the image at
    the transfer's offsets `(b, r0, c0)`, so the entry is the image's at `(b, r0 + p, c0 + q)`. -/
theorem nf_src_at (c : Dev nD) (fh0 : HbBuf0 (F := F) c hbM0_0) (b : Fin 32) (r0 c0 : ℕ) (off : Fin 3 → ℕ) (h : off = ![b.val, r0, c0])
    (inb : ∀ a, off a + (![1, 159, 159] : Fin 3 → ℕ) a ≤ S32x2048x2048.size a)
    (hn : S159x159.numel = (Rect.unit (s := S32x2048x2048) off ![1, 159, 159] inb).shape.numel) (p q : Fin 159) :
    ReadAs.same.apply (View.read (Elt F) (((View.whole main_arg0).slice (Rect.unit (s := S32x2048x2048) off ![1, 159, 159] inb)).reshape S159x159 hn) fh0) (ix2 p q)
      = fh0 (ix3 b ⟨r0 + p.val, Cert.LibBandRead.row_lt h inb p⟩ ⟨c0 + q.val, Cert.LibBandRead.col_lt h inb q⟩) :=
  src_at c fh0 b r0 c0 off h inb (fun _ => rfl) squeezes_S1x159x159_S159x159 p q

/-! ## The found block does not depend on the scratch buffer's entry contents -/

/-- The one piece the run finds is the block of image `imgOf i`, whatever the scratch buffer held at entry: every
    slot read sees through the later transfer into the other slot to the transfer into its own, and that transfer
    delivered the band. -/
theorem raw_eq (c : Dev nD) (i : grid0.Coords) (arg2 : Memref sig .tc .vmem S1x1x2048 .f32) (harg2 : arg2.IsWhole) (arg3 : Memref sig .tc .vmem S2x160x256 .f32) (harg3 : arg3.IsWhole)
     (fh0 : HbBuf0 (F := F) c hbM0_0) (fs0 : arg3.view.ty.Contents (Elt F)) :
    (kernelRun0_Araw c i arg2 harg2 arg3 harg3 fh0 fs0).1
      = [⟨Rect.unit (s := S1x1x2048) ![0, 0, 0] S1x1x2048.size inb_S1x1x2048_S1x1x2048_0_0_0, blockF fh0 (imgOf i)⟩] := by
  unfold kernelRun0_Araw
  dsimp only
  sl_unfold_run_names
  simp only [Cert.LibSlotRead.nf_slot0_write_slot1, Cert.LibSlotRead.nf_slot0_write_slot0,
    Cert.LibSlotRead.nf_slot1_write_slot0, Cert.LibSlotRead.nf_slot1_write_slot1]
  simp only [nf_src_at c fh0 (imgOf i) _ _ (k0_off1 i) (off1_eq i),
    nf_src_at c fh0 (imgOf i) _ _ (k0_off2 i) (off2_eq i),
    nf_src_at c fh0 (imgOf i) _ _ (k0_off3 i) (off3_eq i),
    nf_src_at c fh0 (imgOf i) _ _ (k0_off4 i) (off4_eq i),
    nf_src_at c fh0 (imgOf i) _ _ (k0_off5 i) (off5_eq i),
    nf_src_at c fh0 (imgOf i) _ _ (k0_off6 i) (off6_eq i),
    nf_src_at c fh0 (imgOf i) _ _ (k0_off7 i) (off7_eq i),
    nf_src_at c fh0 (imgOf i) _ _ (k0_off8 i) (off8_eq i),
    nf_src_at c fh0 (imgOf i) _ _ (k0_off9 i) (off9_eq i),
    nf_src_at c fh0 (imgOf i) _ _ (k0_off10 i) (off10_eq i),
    nf_src_at c fh0 (imgOf i) _ _ (k0_off11 i) (off11_eq i),
    nf_src_at c fh0 (imgOf i) _ _ (k0_off12 i) (off12_eq i),
    nf_src_at c fh0 (imgOf i) _ _ (k0_off13 i) (off13_eq i),
    nf_src_at c fh0 (imgOf i) _ _ (k0_off14 i) (off14_eq i)]
  rfl

/-! ## The run from any scratch contents -/

/-- The body's run on whole staging memrefs: the output's staging buffer ends with the block of image `imgOf i` written. -/
noncomputable def kernelRun0_A (c : Dev nD) (i : grid0.Coords) (arg2 : Memref sig .tc .vmem S1x1x2048 .f32) (harg2 : arg2.IsWhole) (arg3 : Memref sig .tc .vmem S2x160x256 .f32) (harg3 : arg3.IsWhole)
     (fh0 : HbBuf0 (F := F) c hbM0_0) :
    { L0 : List (View.Piece (Elt F) S1x1x2048 .f32) //
      ∀ (W : Waits sig Unit) (K : PUnit → sProp 𝕄),
        iprop((∃ d, owns (c : Thread nD τ) arg2 fullShare d) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ owes (c : Thread nD τ) 0 W
            ∗ (iprop((∃ f, arg2.view.loc (c : Thread nD τ) ↦[arg2.view.set]{fullShare} arg2.view.writes (Elt F) f L0) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ (∃ W', owes (c : Thread nD τ) 0 W')) -∗ K ⟨⟩))
          ⊢ wp frame (wpE (defs₀ (F := F)) Variants.none c none) Set.univ (cc0__diamond_kernel i (Memref.whole main_arg0) (Memref.isWhole_whole _) arg2 harg2 arg3 harg3 cc0_scratch1) K } :=
  ⟨[⟨Rect.unit (s := S1x1x2048) ![0, 0, 0] S1x1x2048.size inb_S1x1x2048_S1x1x2048_0_0_0, blockF fh0 (imgOf i)⟩], fun W K => by
    unfold owns
    iintro ⟨H0, ⟨%ds0, %fs0, -, HS0⟩, Hq0, Hq1, Hh0, HW, Hk⟩
    have h := (kernelRun0_Araw c i arg2 harg2 arg3 harg3 fh0 fs0).2 W K
    rw [raw_eq c i arg2 harg2 arg3 harg3 fh0 fs0] at h
    unfold owns at h
    iapply h
    isplitl [H0]; · iexact H0
    isplitl [HS0]; · iexact HS0
    isplitl [Hq0]; · iexact Hq0
    isplitl [Hq1]; · iexact Hq1
    isplitl [Hh0]; · iexact Hh0
    isplitl [HW]; · iexact HW
    iexact Hk⟩

end Cert.Kernel.GenP

end
-- ==== Proof.KernelIdealBody.lean ====
/-
  The kernel body's run, with what it leaves in the output block named as a function of the image batch.

  At grid point `i` the body works on image `i 0`. It brings 14 square bands of the image (159 × 159, band `t` with its
  corner at row `144 t`, column `144 t + 17`) from the array left in HBM into a two-slot scratch buffer by transfers of
  its own — band `t` into slot `t mod 2`, the next band requested before the current one is used —, loads each band
  back from its slot, and stores one block: the 14 masked lane sums joined, scaled and padded (`blockF`).

  The run is stated twice. `kernelRun0_Araw` takes the scratch buffer's contents at entry, `fs0`, as a parameter: the
  value the run finds for the stored block is then a term that mentions `fs0`, because each band is read back out of
  a scratch buffer that was written over `fs0`. `raw_eq` shows that this term does not depend on `fs0` at all: a
  slot read after a transfer into the same slot is the delivered band, and a transfer into the other slot is not
  seen. `kernelRun0_A` is then the run at any entry contents of the scratch buffer, with the block `blockF` as the
  one piece the output's staging buffer ends with.
-/
import proofs.«101728_j26792005992502_2_alg».proof.Proof.Gen.KernelIdeal.Frame.Runs
import proofs.«101728_j26792005992502_2_alg».proof.Proof.LibSlotRead
import proofs.«101728_j26792005992502_2_alg».proof.Proof.LibBandRead
import Idealize.ShloMosaic.Lib.ValueIdx
import Idealize.ShloMosaic.Lib.Pipeline.Value

-- membership in a rectangle of production extents (`View.cover_of_tiled`): the elaborator's structural look
-- recurses once per coordinate of the long axes
set_option maxRecDepth 16384

noncomputable section

namespace Cert.KernelIdeal.GenP

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The band, the chunk and the block, for any float type -/

/-- The image a grid point works on: the grid has one axis of extent 32. -/
def imgOf (i : grid0.Coords) : Fin 32 := ⟨(i 0).val, (i 0).isLt⟩

/-- The band of image `b` that stretch `t` of the diagonal reads: entry `(0, r, q)` is the image's entry at row
    `144 t + r`, column `144 t + 17 + q`. -/
def bandF (x : S32x2048x2048.Idx → F .f32) (b : Fin 32) (t : Fin 14) : Vec F S1x159x159 .f32 :=
  fun y =>
    have h1 : (y 1).val < 159 := (y 1).isLt
    have h2 : (y 2).val < 159 := (y 2).isLt
    x (ix3 b ⟨144 * t.val + (y 1).val, by omega⟩ ⟨144 * t.val + 17 + (y 2).val, by omega⟩)

/-- Image `b`'s block: the 14 chunks (masked lane sums of the 16 row-shifted copies of each band) joined, scaled by
    `1/256` and padded with zeros to 2048 lanes. -/
def blockF (x : S32x2048x2048.Idx → F .f32) (b : Fin 32) : FVec F S1x1x2048 .f32 :=
  k0_pay40 k0_pay1 (k0_pay6 k0_pay1 (bandF x b 0)) (k0_pay6 k0_pay1 (bandF x b 1)) (k0_pay6 k0_pay1 (bandF x b 2))
    (k0_pay6 k0_pay1 (bandF x b 3)) (k0_pay6 k0_pay1 (bandF x b 4)) (k0_pay6 k0_pay1 (bandF x b 5))
    (k0_pay6 k0_pay1 (bandF x b 6)) (k0_pay6 k0_pay1 (bandF x b 7)) (k0_pay6 k0_pay1 (bandF x b 8))
    (k0_pay6 k0_pay1 (bandF x b 9)) (k0_pay6 k0_pay1 (bandF x b 10)) (k0_pay6 k0_pay1 (bandF x b 11))
    (k0_pay6 k0_pay1 (bandF x b 12)) (k0_pay38 (bandF x b 13)) (k0_pay39 (bandF x b 13))

/-! ## The run from given scratch contents -/

set_option maxHeartbeats 1084000 in set_option sl_exec.dmaWindow true in set_option sl_exec.dmaWindowSet true in
/-- The body's run from a scratch buffer holding `fs0`: the pieces the output's staging buffer ends with are found by
    the run, and may mention `fs0`. -/
noncomputable def kernelRun0_Araw (c : Dev nD) (i : grid0.Coords) (arg2 : Memref sig .tc .vmem S1x1x2048 .f32) (harg2 : arg2.IsWhole) (arg3 : Memref sig .tc .vmem S2x160x256 .f32) (harg3 : arg3.IsWhole)
     (fh0 : HbBuf0 (F := F) c hbM0_0) (fs0 : arg3.view.ty.Contents (Elt F)) :
    { L0 : List (View.Piece (Elt F) S1x1x2048 .f32) //
      ∀ (W : Waits sig Unit) (K : PUnit → sProp 𝕄),
        iprop((∃ d, owns (c : Thread nD τ) arg2 fullShare d) ∗ (arg3.view.loc (c : Thread nD τ) ↦[arg3.view.set]{fullShare} fs0) ∗ semVal ((c : Thread nD τ), SemLoc.dma 2) 0 ∗ semVal ((c : Thread nD τ), SemLoc.dma 3) 0 ∗ hbPt0 c hbM0_0 fh0 ∗ owes (c : Thread nD τ) 0 W
            ∗ (iprop((∃ f, arg2.view.loc (c : Thread nD τ) ↦[arg2.view.set]{fullShare} arg2.view.writes (Elt F) f L0) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ (∃ W', owes (c : Thread nD τ) 0 W')) -∗ K ⟨⟩))
          ⊢ wp frame (wpE (defs₀ (F := F)) Variants.none c none) Set.univ (cc0__diamond_kernel i (Memref.whole main_arg0) (Memref.isWhole_whole _) arg2 harg2 arg3 harg3 cc0_scratch1) K } := by
  refine ⟨?_, fun W K => ?run⟩
  case run =>
    simp only [cc0__diamond_kernel_eq_skeleton]; unfold cc0__diamond_kernel_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%d0, %f0, -, H0⟩, HS0, Hq0, Hq1, Hh0, HW, Hk⟩
    sl_exec
    sl_step
    iapply Hk
    isplitl [H0]; · iexists _; iexact H0
    isplitl [HS0]
    · iexists _, _; isplitr; swap; · iexact HS0
      ipureintro; rfl
    isplitl [Hq0]; · iexact Hq0
    isplitl [Hq1]; · iexact Hq1
    isplitl [Hh0]; · iexact Hh0
    iexists _; iexact HW

/-! ## Where each transfer reads the image -/

theorem off1_eq (i : grid0.Coords) : k0_off1 i = ![(imgOf i).val, 0, 17] := by
  unfold k0_off1
  have h : (BitVec.ofNat 32 (i 0).val).toNat = (i 0).val := by
    rw [BitVec.toNat_ofNat]; exact Nat.mod_eq_of_lt (lt_of_lt_of_le (i 0).isLt (by decide))
  simp only [h]
  rfl
theorem off2_eq (i : grid0.Coords) : k0_off2 i = ![(imgOf i).val, 144, 161] := by
  unfold k0_off2
  have h : (BitVec.ofNat 32 (i 0).val).toNat = (i 0).val := by
    rw [BitVec.toNat_ofNat]; exact Nat.mod_eq_of_lt (lt_of_lt_of_le (i 0).isLt (by decide))
  simp only [h]
  rfl
theorem off3_eq (i : grid0.Coords) : k0_off3 i = ![(imgOf i).val, 288, 305] := by
  unfold k0_off3
  have h : (BitVec.ofNat 32 (i 0).val).toNat = (i 0).val := by
    rw [BitVec.toNat_ofNat]; exact Nat.mod_eq_of_lt (lt_of_lt_of_le (i 0).isLt (by decide))
  simp only [h]
  rfl
theorem off4_eq (i : grid0.Coords) : k0_off4 i = ![(imgOf i).val, 432, 449] := by
  unfold k0_off4
  have h : (BitVec.ofNat 32 (i 0).val).toNat = (i 0).val := by
    rw [BitVec.toNat_ofNat]; exact Nat.mod_eq_of_lt (lt_of_lt_of_le (i 0).isLt (by decide))
  simp only [h]
  rfl
theorem off5_eq (i : grid0.Coords) : k0_off5 i = ![(imgOf i).val, 576, 593] := by
  unfold k0_off5
  have h : (BitVec.ofNat 32 (i 0).val).toNat = (i 0).val := by
    rw [BitVec.toNat_ofNat]; exact Nat.mod_eq_of_lt (lt_of_lt_of_le (i 0).isLt (by decide))
  simp only [h]
  rfl
theorem off6_eq (i : grid0.Coords) : k0_off6 i = ![(imgOf i).val, 720, 737] := by
  unfold k0_off6
  have h : (BitVec.ofNat 32 (i 0).val).toNat = (i 0).val := by
    rw [BitVec.toNat_ofNat]; exact Nat.mod_eq_of_lt (lt_of_lt_of_le (i 0).isLt (by decide))
  simp only [h]
  rfl
theorem off7_eq (i : grid0.Coords) : k0_off7 i = ![(imgOf i).val, 864, 881] := by
  unfold k0_off7
  have h : (BitVec.ofNat 32 (i 0).val).toNat = (i 0).val := by
    rw [BitVec.toNat_ofNat]; exact Nat.mod_eq_of_lt (lt_of_lt_of_le (i 0).isLt (by decide))
  simp only [h]
  rfl
theorem off8_eq (i : grid0.Coords) : k0_off8 i = ![(imgOf i).val, 1008, 1025] := by
  unfold k0_off8
  have h : (BitVec.ofNat 32 (i 0).val).toNat = (i 0).val := by
    rw [BitVec.toNat_ofNat]; exact Nat.mod_eq_of_lt (lt_of_lt_of_le (i 0).isLt (by decide))
  simp only [h]
  rfl
theorem off9_eq (i : grid0.Coords) : k0_off9 i = ![(imgOf i).val, 1152, 1169] := by
  unfold k0_off9
  have h : (BitVec.ofNat 32 (i 0).val).toNat = (i 0).val := by
    rw [BitVec.toNat_ofNat]; exact Nat.mod_eq_of_lt (lt_of_lt_of_le (i 0).isLt (by decide))
  simp only [h]
  rfl
theorem off10_eq (i : grid0.Coords) : k0_off10 i = ![(imgOf i).val, 1296, 1313] := by
  unfold k0_off10
  have h : (BitVec.ofNat 32 (i 0).val).toNat = (i 0).val := by
    rw [BitVec.toNat_ofNat]; exact Nat.mod_eq_of_lt (lt_of_lt_of_le (i 0).isLt (by decide))
  simp only [h]
  rfl
theorem off11_eq (i : grid0.Coords) : k0_off11 i = ![(imgOf i).val, 1440, 1457] := by
  unfold k0_off11
  have h : (BitVec.ofNat 32 (i 0).val).toNat = (i 0).val := by
    rw [BitVec.toNat_ofNat]; exact Nat.mod_eq_of_lt (lt_of_lt_of_le (i 0).isLt (by decide))
  simp only [h]
  rfl
theorem off12_eq (i : grid0.Coords) : k0_off12 i = ![(imgOf i).val, 1584, 1601] := by
  unfold k0_off12
  have h : (BitVec.ofNat 32 (i 0).val).toNat = (i 0).val := by
    rw [BitVec.toNat_ofNat]; exact Nat.mod_eq_of_lt (lt_of_lt_of_le (i 0).isLt (by decide))
  simp only [h]
  rfl
theorem off13_eq (i : grid0.Coords) : k0_off13 i = ![(imgOf i).val, 1728, 1745] := by
  unfold k0_off13
  have h : (BitVec.ofNat 32 (i 0).val).toNat = (i 0).val := by
    rw [BitVec.toNat_ofNat]; exact Nat.mod_eq_of_lt (lt_of_lt_of_le (i 0).isLt (by decide))
  simp only [h]
  rfl
theorem off14_eq (i : grid0.Coords) : k0_off14 i = ![(imgOf i).val, 1872, 1889] := by
  unfold k0_off14
  have h : (BitVec.ofNat 32 (i 0).val).toNat = (i 0).val := by
    rw [BitVec.toNat_ofNat]; exact Nat.mod_eq_of_lt (lt_of_lt_of_le (i 0).isLt (by decide))
  simp only [h]
  rfl

/-- A delivered band at `(p, q)`: the transfer's source is the corner of the image at the transfer's offsets. -/
theorem src_at (c : Dev nD) (fh0 : HbBuf0 (F := F) c hbM0_0) (b : Fin 32) (r0 c0 : ℕ) (off : Fin 3 → ℕ) (h : off = ![b.val, r0, c0])
    (inb : ∀ a, off a + S1x159x159.size a ≤ S32x2048x2048.size a) (hr) (hq : S1x159x159.Squeezes S159x159) (p q : Fin 159) :
    ReadAs.same.apply (View.read (Elt F) ((hbM0_0.slice (Rect.unit (s := S32x2048x2048) off S1x159x159.size inb) hr).squeeze S159x159 hq).view fh0) (ix2 p q)
      = fh0 (ix3 b ⟨r0 + p.val, Cert.LibBandRead.row_lt h inb p⟩ ⟨c0 + q.val, Cert.LibBandRead.col_lt h inb q⟩) := by
  rw [Cert.LibBandRead.read_same, Cert.LibBandRead.read_band hbM0_0 off b.val r0 c0 h inb hr hq fh0 p q]
  rfl

/-- A delivered band at `(p, q)`, in the spelling the collapsed run shows: the transfer's source is the corner of the image at
    the transfer's offsets `(b, r0, c0)`, so the entry is the image's at `(b, r0 + p, c0 + q)`. -/
theorem nf_src_at (c : Dev nD) (fh0 : HbBuf0 (F := F) c hbM0_0) (b : Fin 32) (r0 c0 : ℕ) (off : Fin 3 → ℕ) (h : off = ![b.val, r0, c0])
    (inb : ∀ a, off a + (![1, 159, 159] : Fin 3 → ℕ) a ≤ S32x2048x2048.size a)
    (hn : S159x159.numel = (Rect.unit (s := S32x2048x2048) off ![1, 159, 159] inb).shape.numel) (p q : Fin 159) :
    ReadAs.same.apply (View.read (Elt F) (((View.whole main_arg0).slice (Rect.unit (s := S32x2048x2048) off ![1, 159, 159] inb)).reshape S159x159 hn) fh0) (ix2 p q)
      = fh0 (ix3 b ⟨r0 + p.val, Cert.LibBandRead.row_lt h inb p⟩ ⟨c0 + q.val, Cert.LibBandRead.col_lt h inb q⟩) :=
  src_at c fh0 b r0 c0 off h inb (fun _ => rfl) squeezes_S1x159x159_S159x159 p q

/-! ## The found block does not depend on the scratch buffer's entry contents -/

/-- The one piece the run finds is the block of image `imgOf i`, whatever the scratch buffer held at entry: every
    slot read sees through the later transfer into the other slot to the transfer into its own, and that transfer
    delivered the band. -/
theorem raw_eq (c : Dev nD) (i : grid0.Coords) (arg2 : Memref sig .tc .vmem S1x1x2048 .f32) (harg2 : arg2.IsWhole) (arg3 : Memref sig .tc .vmem S2x160x256 .f32) (harg3 : arg3.IsWhole)
     (fh0 : HbBuf0 (F := F) c hbM0_0) (fs0 : arg3.view.ty.Contents (Elt F)) :
    (kernelRun0_Araw c i arg2 harg2 arg3 harg3 fh0 fs0).1
      = [⟨Rect.unit (s := S1x1x2048) ![0, 0, 0] S1x1x2048.size inb_S1x1x2048_S1x1x2048_0_0_0, blockF fh0 (imgOf i)⟩] := by
  unfold kernelRun0_Araw
  dsimp only
  sl_unfold_run_names
  simp only [Cert.LibSlotRead.nf_slot0_write_slot1, Cert.LibSlotRead.nf_slot0_write_slot0,
    Cert.LibSlotRead.nf_slot1_write_slot0, Cert.LibSlotRead.nf_slot1_write_slot1]
  simp only [nf_src_at c fh0 (imgOf i) _ _ (k0_off1 i) (off1_eq i),
    nf_src_at c fh0 (imgOf i) _ _ (k0_off2 i) (off2_eq i),
    nf_src_at c fh0 (imgOf i) _ _ (k0_off3 i) (off3_eq i),
    nf_src_at c fh0 (imgOf i) _ _ (k0_off4 i) (off4_eq i),
    nf_src_at c fh0 (imgOf i) _ _ (k0_off5 i) (off5_eq i),
    nf_src_at c fh0 (imgOf i) _ _ (k0_off6 i) (off6_eq i),
    nf_src_at c fh0 (imgOf i) _ _ (k0_off7 i) (off7_eq i),
    nf_src_at c fh0 (imgOf i) _ _ (k0_off8 i) (off8_eq i),
    nf_src_at c fh0 (imgOf i) _ _ (k0_off9 i) (off9_eq i),
    nf_src_at c fh0 (imgOf i) _ _ (k0_off10 i) (off10_eq i),
    nf_src_at c fh0 (imgOf i) _ _ (k0_off11 i) (off11_eq i),
    nf_src_at c fh0 (imgOf i) _ _ (k0_off12 i) (off12_eq i),
    nf_src_at c fh0 (imgOf i) _ _ (k0_off13 i) (off13_eq i),
    nf_src_at c fh0 (imgOf i) _ _ (k0_off14 i) (off14_eq i)]
  rfl

/-! ## The run from any scratch contents -/

/-- The body's run on whole staging memrefs: the output's staging buffer ends with the block of image `imgOf i` written. -/
noncomputable def kernelRun0_A (c : Dev nD) (i : grid0.Coords) (arg2 : Memref sig .tc .vmem S1x1x2048 .f32) (harg2 : arg2.IsWhole) (arg3 : Memref sig .tc .vmem S2x160x256 .f32) (harg3 : arg3.IsWhole)
     (fh0 : HbBuf0 (F := F) c hbM0_0) :
    { L0 : List (View.Piece (Elt F) S1x1x2048 .f32) //
      ∀ (W : Waits sig Unit) (K : PUnit → sProp 𝕄),
        iprop((∃ d, owns (c : Thread nD τ) arg2 fullShare d) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ owes (c : Thread nD τ) 0 W
            ∗ (iprop((∃ f, arg2.view.loc (c : Thread nD τ) ↦[arg2.view.set]{fullShare} arg2.view.writes (Elt F) f L0) ∗ (∃ d, owns (c : Thread nD τ) arg3 fullShare d) ∗ semVal ((c : Thread nD τ), SemLoc.dma 2) 0 ∗ semVal ((c : Thread nD τ), SemLoc.dma 3) 0 ∗ hbPt0 c hbM0_0 fh0 ∗ (∃ W', owes (c : Thread nD τ) 0 W')) -∗ K ⟨⟩))
          ⊢ wp frame (wpE (defs₀ (F := F)) Variants.none c none) Set.univ (cc0__diamond_kernel i (Memref.whole main_arg0) (Memref.isWhole_whole _) arg2 harg2 arg3 harg3 cc0_scratch1) K } :=
  ⟨[⟨Rect.unit (s := S1x1x2048) ![0, 0, 0] S1x1x2048.size inb_S1x1x2048_S1x1x2048_0_0_0, blockF fh0 (imgOf i)⟩], fun W K => by
    unfold owns
    iintro ⟨H0, ⟨%ds0, %fs0, -, HS0⟩, Hq0, Hq1, Hh0, HW, Hk⟩
    have h := (kernelRun0_Araw c i arg2 harg2 arg3 harg3 fh0 fs0).2 W K
    rw [raw_eq c i arg2 harg2 arg3 harg3 fh0 fs0] at h
    unfold owns at h
    iapply h
    isplitl [H0]; · iexact H0
    isplitl [HS0]; · iexact HS0
    isplitl [Hq0]; · iexact Hq0
    isplitl [Hq1]; · iexact Hq1
    isplitl [Hh0]; · iexact Hh0
    isplitl [HW]; · iexact HW
    iexact Hk⟩

end Cert.KernelIdeal.GenP

end
-- ==== Proof.Spec.lean ====
/-
  The function both programs compute. The input is a batch of 32 square images `x[b, r, c]`, 2048 on a side. For
  each of the 2016 positions `d` along the diagonal there is a 16 × 16 window of the image: rows `d, …, d + 15` and
  columns `d + 17, …, d + 32` (the window starts 17 columns to the right of the diagonal). The result at `(b, d)` is
  the mean of the window: the sum of its 256 entries times `1/256`.

  Everything is stated on the extended reals. Addition there is commutative and associative, so the window's sum may
  be taken in any order and grouping; and a quotient by the real 256 is the product with the real 1/256 on every
  extended real. Nothing else is needed to join the two programs, so finiteness of the input is never used.
-/
import Idealize.ShloMosaic.PureOps.Ideal
import Idealize.ShloMosaic.Lib.ValueIdx

noncomputable section

namespace Cert.Window

open Idealize.ShloMosaic Idealize.ShloMosaic.ValueIdx

/-- The image batch's shape and the result's. -/
abbrev SX : Shape := ⟨3, ![32, 2048, 2048]⟩
abbrev SO : Shape := ⟨2, ![32, 2016]⟩

/-- Row `i` of the window at diagonal position `d`. -/
def row (d : Fin 2016) (i : Fin 16) : Fin 2048 := ⟨d.val + i.val, by omega⟩
/-- Column `j` of the window at diagonal position `d`: 17 to the right of the diagonal. -/
def col (d : Fin 2016) (j : Fin 16) : Fin 2048 := ⟨d.val + 17 + j.val, by omega⟩

@[simp] theorem row_val (d : Fin 2016) (i : Fin 16) : (row d i).val = d.val + i.val := rfl
@[simp] theorem col_val (d : Fin 2016) (j : Fin 16) : (col d j).val = d.val + 17 + j.val := rfl

/-- The sum of the 256 entries of image `b`'s window at diagonal position `d`. -/
def windowSum (x : SX.Idx → EReal) (b : Fin 32) (d : Fin 2016) : EReal :=
  ∑ i : Fin 16, ∑ j : Fin 16, x (ix3 b (row d i) (col d j))

/-- The mean of every window: what both programs return. -/
def G (x : SX.Idx → EReal) : SO.Idx → EReal :=
  fun n => windowSum x (n 0) (n 1) * ((1 / 256 : ℝ) : EReal)

theorem G_apply (x : SX.Idx → EReal) (b : Fin 32) (d : Fin 2016) :
    G x (ix2 b d) = windowSum x b d * ((1 / 256 : ℝ) : EReal) := rfl

/-! ## The three float patterns the programs spell -/

/-- The pattern of `+0.0` denotes `0`. -/
theorem ofBits_zero : Ideal.ofBits .f32 0x00000000#32 = 0 := by
  simp [Ideal.ofBits, Ideal.ieee]

/-- The pattern of `256.0` denotes the real `256`. -/
theorem ofBits_256 : Ideal.ofBits .f32 0x43800000#32 = ((256 : ℝ) : EReal) := by
  simp [Ideal.ofBits, Ideal.ieee, -EReal.coe_mul]; norm_num

/-- The pattern of `0.00390625` denotes the real `1/256` exactly: it is a power of two. -/
theorem ofBits_inv256 : Ideal.ofBits .f32 0x3B800000#32 = ((1 / 256 : ℝ) : EReal) := by
  simp [Ideal.ofBits, Ideal.ieee, -EReal.coe_mul]; norm_num

/-- A quotient by `256` is the product with `1/256`, on every extended real. -/
theorem div_256 (s : EReal) : Ideal.div s (Ideal.ofBits .f32 0x43800000#32) = s * ((1 / 256 : ℝ) : EReal) := by
  rw [ofBits_256]; exact Ideal.div_coe (by norm_num) s

end Cert.Window

end
-- ==== Proof.KerSpec.lean ====
/-
  The kernel's result block, written as one term of the image batch.

  At grid point `b` the kernel handles image `b`. It cuts the diagonal into 14 stretches of 144 positions. For stretch
  `t` it brings in a BAND of the image, the 159 × 159 square whose corner is at row `144 t`, column `144 t + 17`: this
  square holds the 16 × 16 windows of all 144 positions of the stretch (159 = 144 + 15). From a band the body computes
  a CHUNK of 144 numbers: entry `l` is the sum over the band's entries `(l + i, l + j)`, `i, j < 16`, formed as the sum
  of 16 row-shifted copies of the band, masked to the 16 columns from `l` on, and summed along the lanes. The 14 chunks
  are joined end to end, scaled by `1/256`, padded with 32 zeros to 2048 lanes and stored as the block `[1, 1, 2048]`.

  Here the band, the chunk and the block are named as functions of the image batch, over the generated payload terms
  (the body's arithmetic as pure terms); the other modules prove that the body's run leaves the block (the run), what
  the block holds at an index (the arithmetic), and how the blocks make up the result (the cover and the host's slice).
-/
import proofs.«101728_j26792005992502_2_alg».proof.Proof.Gen.KernelIdeal.Skeleton
import proofs.«101728_j26792005992502_2_alg».proof.Proof.Spec

noncomputable section

namespace Cert.KernelIdeal.KerValue

open Cert.KernelIdeal Cert.KernelIdeal.Gen Idealize.ShloMosaic Idealize.ShloMosaic.ValueIdx

/-- The band of image `b` that stretch `t` reads: entry `(0, r, q)` is the image's entry at row `144 t + r`, column
    `144 t + 17 + q`. -/
def band (x : S32x2048x2048.Idx → EReal) (b : Fin 32) (t : Fin 14) : Vec Ideal S1x159x159 .f32 :=
  fun y =>
    have h1 : (y 1).val < 159 := (y 1).isLt
    have h2 : (y 2).val < 159 := (y 2).isLt
    x (ix3 b ⟨144 * t.val + (y 1).val, by omega⟩ ⟨144 * t.val + 17 + (y 2).val, by omega⟩)

/-- The mask shared by all stretches: lane `q` of row `l` is kept when `0 ≤ q - l < 16`. -/
abbrev mask : IVec S144x159 1 := k0_pay1

/-- Stretch `t`'s chunk: the masked lane sums of the 16 row-shifted copies of its band. -/
def chunk (x : S32x2048x2048.Idx → EReal) (b : Fin 32) (t : Fin 14) : FVec Ideal S144 .f32 :=
  k0_pay6 (F := Ideal) mask (band x b t)

/-- Image `b`'s block: the 14 chunks joined, scaled and padded (the last stretch's chunk is formed inside the final
    payload, from its band's cast and the sum of its first three shifted copies). -/
def block (x : S32x2048x2048.Idx → EReal) (b : Fin 32) : FVec Ideal S1x1x2048 .f32 :=
  k0_pay40 (F := Ideal) mask (chunk x b 0) (chunk x b 1) (chunk x b 2) (chunk x b 3) (chunk x b 4) (chunk x b 5)
    (chunk x b 6) (chunk x b 7) (chunk x b 8) (chunk x b 9) (chunk x b 10) (chunk x b 11) (chunk x b 12)
    (k0_pay38 (F := Ideal) (band x b 13)) (k0_pay39 (F := Ideal) (band x b 13))

end Cert.KernelIdeal.KerValue

end
-- ==== Proof.Pieces.lean ====
/-
  What the body leaves in the output's staging buffer at each grid point: the block of the point's image.

  The body's run ends with one store covering the whole block `[1, 1, 2048]`, so the buffer read back is that store's
  payload: the block of image `b`, where `b` is the grid point's one coordinate. At the extended reals that block
  is the one KerSpec.lean names.
-/
import proofs.«101728_j26792005992502_2_alg».proof.Proof.KernelIdealFrameP
import proofs.«101728_j26792005992502_2_alg».proof.Proof.KerSpec
import Idealize.ShloMosaic.Lib.Pipeline.Value

set_option maxRecDepth 16384

noncomputable section

namespace Cert.KernelIdeal.KerValue

open Cert.KernelIdeal Cert.KernelIdeal.Gen Cert.KernelIdeal.GenP
open Idealize.ShloMosaic Idealize.ShloMosaic.TcCoe Idealize.ShloMosaic.ValueIdx Idealize.SL.Sem

/-- The store's offsets are all zero: it covers the block from its corner. -/
theorem zero_offsets : (![0, 0, 0] : Fin 3 → Nat) = fun _ => 0 := funext fun a => by fin_cases a <;> rfl

/-- At the extended reals, the block written for any float type is the block of KerSpec.lean: the same band, the same
    payload terms. -/
theorem blockF_eq_block (x : S32x2048x2048.Idx → EReal) (b : Fin 32) : blockF (F := Ideal) x b = block x b := rfl

/-- The staging buffer after the body at grid coordinates `i`, on any staging and scratch memrefs, from image batch
    `fh0`: the block of image `imgOf i`. -/
theorem out_eq_block (c : Dev nD) (i : grid0.Coords) (arg2 : Memref sig .tc .vmem S1x1x2048 .f32) (harg2 : arg2.IsWhole)
    (arg3 : Memref sig .tc .vmem S2x160x256 .f32) (harg3 : arg3.IsWhole) (fh0 : HbBuf0 (F := Ideal) c hbM0_0) :
    out0_A_0 (F := Ideal) c i arg2 harg2 arg3 harg3 fh0 = block fh0 (imgOf i) := by
  unfold out0_A_0
  rw [View.read_writes_eq_canon _ _ _ (cover0_A_0 c i arg2 harg2 arg3 harg3 fh0)]
  show View.canon [(⟨Rect.unit (s := S1x1x2048) ![0, 0, 0] S1x1x2048.size inb_S1x1x2048_S1x1x2048_0_0_0, blockF (F := Ideal) fh0 (imgOf i)⟩ :
      View.Piece (Elt Ideal) S1x1x2048 .f32)] = _
  rw [View.canon_unit_zero zero_offsets]
  rfl

/-- Point by point: after grid point `t` the output's staging buffer holds the block of image `t`. -/
theorem outsAt0_eq (m : (ℓ : Loc nD τ sig) → Buf (Elt Ideal) ℓ) (c : Dev nD) (t : Fin cfg0.N) :
    outsAt0 (F := Ideal) m c t = block (V m c main_arg0) (grid0.coords t 0) := by
  unfold outsAt0
  exact out_eq_block c (grid0.coords t) _ _ _ _ (V m c main_arg0)

end Cert.KernelIdeal.KerValue

end
-- ==== Proof.ChunkSum.lean ====
/-
  What one chunk of the kernel's result holds, entry by entry.

  A chunk is computed from a band, a 159 × 159 square of the image whose corner sits on the diagonal stretch it
  serves, 17 columns to the right. The body adds 16 copies of the band, copy `i` shifted up by `i` rows: entry
  `(l, q)` of the sum is the sum over `i < 16` of the band's entries `(l + i, q)`. A mask then keeps, in row `l`,
  the 16 lanes `q = l, …, l + 15` and puts zero elsewhere, and the lanes of each row are added up. Entry `l` of the
  chunk is therefore the sum of the band's entries `(l + i, l + j)` over `i, j < 16`: the 16 × 16 window of the
  image at diagonal position `144 t + l`.

  Only two facts about addition on the extended reals are used: a sum over all lanes in which every lane outside
  a set of 16 contributes zero is the sum over those 16 lanes, and a double sum may be taken in either order.
-/
import proofs.«101728_j26792005992502_2_alg».proof.Proof.KerSpec
import Idealize.ShloMosaic.Lib.ValueIdx
import Idealize.ShloMosaic.Lib.ValueLayout
import Idealize.ShloMosaic.Lib.Pipeline.Value
import Idealize.ShloMosaic.Lib.WordArith
import Idealize.ShloMosaic.PureOps.Ideal.Laws

noncomputable section

namespace Cert.KernelIdeal.KerValue

open Cert.KernelIdeal Cert.KernelIdeal.Gen Idealize.ShloMosaic Idealize.ShloMosaic.ValueIdx
open scoped BigOperators

/-! ## The mask: lane `q` of row `l` is kept exactly when `l ≤ q < l + 16` -/

/-- The difference of a lane number and a row number, taken on 32-bit words, reads signed as the integers'
    difference: both numbers are far below `2³¹`. -/
theorem toInt_lane_sub_row (l : Fin 144) (q : Fin 159) :
    (BitVec.ofNat 32 q.val - BitVec.ofNat 32 l.val).toInt = (q.val : Int) - (l.val : Int) := by
  have hl := l.isLt
  have hq := q.isLt
  have eq : (BitVec.ofNat 32 q.val).toInt = (q.val : Int) := WordArith.toInt_ofNat_small q.val (by omega)
  have el : (BitVec.ofNat 32 l.val).toInt = (l.val : Int) := WordArith.toInt_ofNat_small l.val (by omega)
  rw [WordArith.toInt_sub_of_bounds _ _ (by rw [eq, el]; omega) (by rw [eq, el]; omega), eq, el]

/-- The mask's bit at row `l`, lane `q`: the conjunction of `0 ≤ q - l` and `q - l < 16`, both compared signed. -/
theorem mask_eq (l : Fin 144) (q : Fin 159) :
    mask (ix2 l q) = BitVec.ofBool
      ((0#32).sle (BitVec.ofNat 32 q.val - BitVec.ofNat 32 l.val)
        && (BitVec.ofNat 32 q.val - BitVec.ofNat 32 l.val).slt 16#32) := by
  have h0 : iota .tc S144x159 32 [0] Facts₀.iota_S144x159_d0_w32 (ix2 l q) = BitVec.ofNat 32 l.val :=
    iota_single_apply .tc S144x159 32 0 _ (ix2 l q)
  have h1 : iota .tc S144x159 32 [1] Facts₀.iota_S144x159_d1_w32 (ix2 l q) = BitVec.ofNat 32 q.val :=
    iota_single_apply .tc S144x159 32 1 _ (ix2 l q)
  show IntOp.andi
      (IntOp.cmpi .sge (IntOp.subi (iota .tc S144x159 32 [1] _ (ix2 l q)) (iota .tc S144x159 32 [0] _ (ix2 l q))) 0#32)
      (IntOp.cmpi .slt (IntOp.subi (iota .tc S144x159 32 [1] _ (ix2 l q)) (iota .tc S144x159 32 [0] _ (ix2 l q))) 16#32)
    = _
  rw [h0, h1]
  exact WordArith.andi_ofBool _ _

/-- On the 16 lanes from `l` on the mask's bit is set … -/
theorem mask_in (l : Fin 144) (q : Fin 159) (h1 : l.val ≤ q.val) (h2 : q.val < l.val + 16) :
    mask (ix2 l q) = 1#1 := by
  rw [mask_eq, WordArith.ofBool_eq_one_iff, Bool.and_eq_true, BitVec.sle_iff_toInt_le, BitVec.slt_iff_toInt_lt,
    toInt_lane_sub_row]
  refine ⟨?_, ?_⟩
  · show (0 : Int) ≤ _; omega
  · show _ < (16 : Int); omega

/-- … and on every other lane it is clear. -/
theorem mask_out (l : Fin 144) (q : Fin 159) (h : ¬(l.val ≤ q.val ∧ q.val < l.val + 16)) :
    mask (ix2 l q) = 0#1 := by
  refine eq_zero_of_ne_one fun h1 => h ?_
  rw [mask_eq, WordArith.ofBool_eq_one_iff, Bool.and_eq_true, BitVec.sle_iff_toInt_le, BitVec.slt_iff_toInt_lt,
    toInt_lane_sub_row] at h1
  obtain ⟨ha, hb⟩ := h1
  have ha' : (0 : Int) ≤ (q.val : Int) - (l.val : Int) := ha
  have hb' : (q.val : Int) - (l.val : Int) < (16 : Int) := hb
  omega

/-! ## The three steps of a chunk, each read at an index -/

/-- The lanes of row `l` added up: the sum over all 159 lanes of the row's entries. -/
theorem lane_sum (src : FVec Ideal S144x159 .f32) (hφ : FKind.Formats .f32)
    (hacc : (0x00000000#32 : BitVec 32) = 0x00000000#32) (l : Fin 144) :
    multiReduction (F := Ideal) .add [1] S144 src 0x00000000#32 Facts₀.reduces_S144x159_S144 hφ hacc (ix1 l)
      = ∑ q : Fin 159, src (ix2 l q) := by
  refine (Ideal.multiReduction_add_single src 0x00000000#32 Facts₀.reduces_S144x159_S144 hφ hacc (ix1 l)).trans ?_
  show ∑ k : Fin 159, src (Facts₀.reduces_S144x159_S144.lift (ix1 l) k) = ∑ q : Fin 159, src (ix2 l q)
  refine Finset.sum_congr rfl fun q _ => congrArg src ?_
  funext a
  match a with
  | ⟨0, _⟩ => exact Fin.ext rfl
  | ⟨1, _⟩ => exact Fin.ext rfl

/-- A copy of the band shifted up by `i` rows still has its 144 rows inside the band's 159. -/
theorem shifted_row_lt {i : Nat} (h : S159x159.Slices ![i, 0] S144x159) (l : Fin 144) : l.val + i < 159 := by
  have hi : i + 144 ≤ 159 := h.2 0
  have hl := l.isLt
  omega

/-- Copy `i` of the band, shifted up by `i` rows, read at `(l, q)`: the band at `(l + i, q)`. -/
theorem shifted_apply (i : Nat) (v : Vec Ideal S1x159x159 .f32) (h : S159x159.Slices ![i, 0] S144x159)
    (l : Fin 144) (q : Fin 159) :
    extractStridedSlice S144x159 ![i, 0] (shapeCast S159x159 v Facts₀.shapeCasts_S1x159x159_S159x159) h (ix2 l q)
      = v (ix3 (0 : Fin 1) (⟨l.val + i, shifted_row_lt h l⟩ : Fin 159) q) :=
  (slice2_axis0_apply i _ h l q (⟨l.val + i, shifted_row_lt h l⟩ : Fin 159) (Nat.add_comm _ _)).trans
    (shapeCast_1ab_ab_apply v _ _ q)

/-- A row of which the mask keeps the 16 lanes from `l` on and puts the others to zero adds up to the sum over
    those 16 lanes: the other 143 lanes contribute nothing. -/
theorem masked_lane_sum (R : FVec Ideal S144x159 .f32) (z : EReal) (hz : z = 0) (l : Fin 144) :
    ∑ q : Fin 159, select mask R (broadcast S144x159 z) (ix2 l q)
      = ∑ j : Fin 16, R (ix2 l (⟨l.val + j.val, by omega⟩ : Fin 159)) := by
  have hl := l.isLt
  refine (Fintype.sum_of_injective (fun j : Fin 16 => (⟨l.val + j.val, by omega⟩ : Fin 159)) ?_ _ _ ?_ ?_).symm
  · intro a b hab
    have := congrArg Fin.val hab
    exact Fin.ext (by simpa using this)
  · intro q hq
    show Scalar.select (mask (ix2 l q)) (R (ix2 l q)) z = 0
    rw [mask_out l q (fun hP => hq ⟨⟨q.val - l.val, by omega⟩, Fin.ext (by show l.val + (q.val - l.val) = q.val; omega)⟩),
      select_zero, hz]
  · intro j
    show R _ = Scalar.select (mask (ix2 l ⟨l.val + j.val, _⟩)) (R (ix2 l ⟨l.val + j.val, _⟩)) z
    rw [mask_in l ⟨l.val + j.val, _⟩ (Nat.le_add_right _ _) (by show l.val + j.val < l.val + 16; omega), select_one]

/-! ## A chunk from any band -/

/-- Entry `l` of the chunk computed from a band `v`: the sum of the band's 16 × 16 square whose corner is `(l, l)`. -/
theorem pay6_apply (v : Vec Ideal S1x159x159 .f32) (l : Fin 144) :
    k0_pay6 (F := Ideal) mask v (ix1 l)
      = ∑ i : Fin 16, ∑ j : Fin 16,
          v (ix3 (0 : Fin 1) (⟨l.val + i.val, by omega⟩ : Fin 159) (⟨l.val + j.val, by omega⟩ : Fin 159)) := by
  have hl := l.isLt
  unfold k0_pay6
  refine (lane_sum _ _ _ l).trans ?_
  refine (masked_lane_sum _ _ Cert.Window.ofBits_zero l).trans ?_
  rw [Finset.sum_comm]
  refine Finset.sum_congr rfl fun j _ => ?_
  have hz : (FloatOps.ofBits .f32 0x00000000#32 : Ideal .f32) = 0 := Cert.Window.ofBits_zero
  simp only [Fin.sum_univ_castSucc, Fin.sum_univ_zero, addf_apply, broadcast_apply, hz]
  rw [shifted_apply 0 v _ l _,
    shifted_apply 1 v _ l _,
    shifted_apply 2 v _ l _,
    shifted_apply 3 v _ l _,
    shifted_apply 4 v _ l _,
    shifted_apply 5 v _ l _,
    shifted_apply 6 v _ l _,
    shifted_apply 7 v _ l _,
    shifted_apply 8 v _ l _,
    shifted_apply 9 v _ l _,
    shifted_apply 10 v _ l _,
    shifted_apply 11 v _ l _,
    shifted_apply 12 v _ l _,
    shifted_apply 13 v _ l _,
    shifted_apply 14 v _ l _,
    shifted_apply 15 v _ l _]
  rfl

/-! ## A chunk of the image -/

/-- Entry `l` of stretch `t`'s chunk is the sum of the image's window at diagonal position `144 t + l`: the band's
    entry `(l + i, l + j)` is the image's entry at row `144 t + l + i`, column `144 t + 17 + l + j`. -/
theorem chunk_apply (x : Cert.KernelIdeal.S32x2048x2048.Idx → EReal) (b : Fin 32) (t : Fin 14) (l : Fin 144) :
    chunk x b t (ix1 l) = Cert.Window.windowSum x b ⟨144 * t.val + l.val, by omega⟩ := by
  have ht := t.isLt
  have hl := l.isLt
  unfold chunk
  refine (pay6_apply (band x b t) l).trans ?_
  unfold Cert.Window.windowSum
  refine Finset.sum_congr rfl fun i _ => Finset.sum_congr rfl fun j _ => ?_
  have hi := i.isLt
  have hj := j.isLt
  show x (ix3 b (⟨144 * t.val + (l.val + i.val), by omega⟩ : Fin 2048)
        (⟨144 * t.val + 17 + (l.val + j.val), by omega⟩ : Fin 2048)) = _
  refine congrArg x ?_
  funext a
  match a with
  | ⟨0, _⟩ => rfl
  | ⟨1, _⟩ => exact Fin.ext (by show 144 * t.val + (l.val + i.val) = 144 * t.val + l.val + i.val; omega)
  | ⟨2, _⟩ => exact Fin.ext (by show 144 * t.val + 17 + (l.val + j.val) = 144 * t.val + l.val + 17 + j.val; omega)

end Cert.KernelIdeal.KerValue

end
-- ==== Proof.BlockRead.lean ====
/-
  What the kernel's result block holds, entry by entry.

  For image `b` the body lays the 14 chunks end to end — 14 × 144 = 2016 numbers, one per diagonal position —, scales
  every one by `1/256`, pads the row with 32 zeros to 2048 lanes and stores it as a `[1, 1, 2048]` block. Entry
  `(0, 0, d)` with `d < 2016` is therefore `1/256` times entry `d % 144` of chunk `d / 144`, which is the sum of the
  image's 16 × 16 window at diagonal position `144 (d / 144) + d % 144 = d`: the window's mean.
-/
import proofs.«101728_j26792005992502_2_alg».proof.Proof.ChunkSum
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.ValueIdx
open scoped BigOperators

/-! ## Laying pieces end to end, read at an index -/

/-- Fourteen pieces of 144 entries laid end to end: entry `d` is entry `d % 144` of piece `d / 144`. -/
theorem joined_apply (f : Fin 14 → FVec Ideal S144 .f32)
    (h : Shape.Concatenates ((List.ofFn fun n : Fin 14 => (⟨S144, f n⟩ : (s : Shape) × (s.Idx → EReal))).map (·.1)) S2016 0)
    (d : Fin 2016) :
    concatenate S2016 0 (List.ofFn fun n : Fin 14 => (⟨S144, f n⟩ : (s : Shape) × (s.Idx → EReal))) h (ix1 d)
      = f (⟨d.val / 144, by omega⟩ : Fin 14) (ix1 (⟨d.val % 144, by omega⟩ : Fin 144)) :=
  concatenate_ofFn_apply (t := S2016) (s₁ := S144) (0 : Fin 1) f h rfl 144 rfl (ix1 d) (⟨d.val / 144, by omega⟩ : Fin 14) rfl
    (ix1 (⟨d.val % 144, by omega⟩ : Fin 144)) rfl (fun b hb => absurd (Subsingleton.elim _ _) hb)

/-- A row of 2016 entries padded to 2048 and stored as a `[1, 1, 2048]` block reads, at `(0, 0, d)` with `d < 2016`,
    entry `d` of the row. -/
theorem padded_apply (A : FVec Ideal S2016 .f32) (Z : FVec Ideal S32 .f32)
    (h : Shape.Concatenates [S2016, S32] S2048 0) (hc : S2048.ShapeCasts S1x1x2048) (d : Fin 2016) :
    shapeCast S1x1x2048 (concatenate S2048 0 [⟨S2016, A⟩, ⟨S32, Z⟩] h) hc
        (ix3 (0 : Fin 1) (0 : Fin 1) (⟨d.val, by omega⟩ : Fin 2048)) = A (ix1 d) := by
  refine (shapeCast_apply _ hc _ (ix1 (⟨d.val, by omega⟩ : Fin 2048)) ?_).trans ?_
  · rw [Shape.rowMajor_val_one, Shape.rowMajor_val_three]
    show d.val = (0 * 1 + 0) * 2048 + d.val
    omega
  · refine concatenate_pair_apply_left (t := S2048) (s₁ := S2016) (s₂ := S32) (0 : Fin 1) A Z h _ rfl (ix1 d) ?_
    intro b
    match b with
    | ⟨0, _⟩ => rfl

/-! ## The block -/

/-- The block is the 14 chunks laid end to end, every entry scaled by the constant whose pattern is `0x3B800000`,
    padded with 32 zeros and stored as `[1, 1, 2048]`. The last stretch's chunk, which the body finishes inside its
    last step from the band's cast and the sum of its first three shifted copies, is the same term as the other
    thirteen: the same sixteen additions, masking and lane sum. -/
theorem block_eq (x : Cert.KernelIdeal.S32x2048x2048.Idx → EReal) (b : Fin 32) :
    block x b = shapeCast S1x1x2048
      (concatenate (α := EReal) S2048 0
        [⟨S2016, mulf (F := Ideal) (φ := .f32)
            (concatenate (α := EReal) S2016 0
              (List.ofFn fun n : Fin 14 => (⟨S144, chunk x b n⟩ : (s : Shape) × (s.Idx → EReal)))
              Facts₀.concatenates_S144_S144_S144_S144_S144_S144_S144_S144_S144_S144_S144_S144_S144_S144_S2016_d0)
            (broadcast S2016 (Ideal.ofBits .f32 0x3B800000#32))⟩,
         ⟨S32, broadcast S32 (Ideal.ofBits .f32 0x00000000#32)⟩]
        Facts₀.concatenates_S2016_S32_S2048_d0)
      Facts₀.shapeCasts_S2048_S1x1x2048 := rfl

/-- Entry `(0, 0, d)` of image `b`'s block, `d < 2016`, is the mean of the image's window at diagonal position `d`:
    position `d` lies in stretch `d / 144` at place `d % 144`, and the scaling constant is `1/256`. -/
theorem block_apply (x : Cert.KernelIdeal.S32x2048x2048.Idx → EReal) (b : Fin 32) (d : Fin 2016) :
    block x b (ix3 (0 : Fin 1) (0 : Fin 1) (⟨d.val, by omega⟩ : Fin 2048)) = Cert.Window.G x (ix2 b d) := by
  have hd := d.isLt
  rw [block_eq, Cert.Window.G_apply]
  refine (padded_apply _ _ _ _ d).trans ?_
  show concatenate S2016 0 _ _ (ix1 d) * Ideal.ofBits .f32 0x3B800000#32 = _
  rw [Cert.Window.ofBits_inv256]
  refine congrArg (fun s => s * _) ?_
  refine (joined_apply (fun n => chunk x b n) _ d).trans ?_
  refine (chunk_apply x b _ _).trans ?_
  refine congrArg (Cert.Window.windowSum x b) (Fin.ext ?_)
  show 144 * (d.val / 144) + d.val % 144 = d.val
  omega

end Cert.KernelIdeal.KerValue

end
-- ==== Proof.KerArray.lean ====
/-
  From the per-point blocks to the array the region leaves.

  The region runs once per image: grid point `b` handles image `b` and writes back ONE block of 2048 lanes, which is
  row `b` of the array `[32, 1, 2048]` (the block index is `(b, 0, 0)` and a block is `[1, 1, 2048]`, so the block's
  lane `q` lands at the array's entry `(b, 0, q)`). Suppose the body leaves, at point `b`, the block `block x b` — a
  function of the image batch `x` alone. Then all 32 blocks are restrictions of ONE function of the array's index,
  `whole x`: its entry `(b, 0, q)` is lane `q` of `block x b`. Every row of the array is some point's block (row `b`
  is point `b`'s), so the blocks cover the array; and an array every entry of which is overwritten with the value of
  one fixed function holds that function afterwards, in whatever order the points ran. That is this module: the three
  facts about the block index (decided over the 32 points), what one point writes back, the cover, the final array.
-/
import proofs.«101728_j26792005992502_2_alg».proof.Proof.KernelIdealFrameP
import proofs.«101728_j26792005992502_2_alg».proof.Proof.KerSpec
import proofs.«101728_j26792005992502_2_alg».proof.Proof.Spec
import Idealize.ShloMosaic.Lib.Pipeline.Value
import Idealize.ShloMosaic.Lib.ValueIdx

noncomputable section

namespace Cert.KernelIdeal.KerValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- At grid point `t` the output's block index is `(t, 0, 0)`, and the point's one coordinate is `t` itself. -/
theorem point_facts : ∀ t : Fin cfg0.N, win0_0.index t (0 : Fin 3) = t.val ∧ win0_0.index t (1 : Fin 3) = 0
    ∧ win0_0.index t (2 : Fin 3) = 0 ∧ (grid0.coords t (0 : Fin 1)).val = t.val :=
  (by decide +kernel : ∀ t : Fin grid0.N, _)

/-- The array `[32, 1, 2048]` whose row `b` is image `b`'s block: entry `(b, 0, q)` is lane `q` of `block x b`. -/
def whole (x : S32x2048x2048.Idx → EReal) : S32x1x2048.Idx → EReal :=
  fun i => block x (i 0) (ix3 (0 : Fin 1) (0 : Fin 1) (i 2))

/-- Row `b` of `whole x` at lane `q`, by definition. -/
theorem whole_apply (x : S32x2048x2048.Idx → EReal) (b : Fin 32) (q : Fin 2048) :
    whole x (ix3 b (0 : Fin 1) q) = block x b (ix3 (0 : Fin 1) (0 : Fin 1) q) := rfl

/-- An entry of image `b`'s block is the entry of `whole x` in row `b` at the same lane: the two unit coordinates of a
    block's index carry nothing. -/
theorem block_eq_whole (x : S32x2048x2048.Idx → EReal) (b : Fin 32) (y : S1x1x2048.Idx) (i : S32x1x2048.Idx)
    (h0 : (i 0).val = b.val) (h2 : (i 2).val = (y 2).val) : block x b y = whole x i := by
  have hb : b = i 0 := Fin.ext h0.symm
  have hy : y = ix3 (0 : Fin 1) (0 : Fin 1) (i 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext h2.symm
  subst hb hy
  rfl

/-- WHAT POINT `t` WRITES BACK is row `t` of `whole x`, `x` the image batch as the region finds it: the body leaves
    `block x t` (the hypothesis), and the block's lane `q` sits at the array's entry `(t, 0, q)` — a block's coordinate
    in the array is the block index times the block's extent plus the coordinate inside the block. -/
theorem flushed_eq
    (hblock : ∀ (c : Dev nD) (t : Fin cfg0.N), outsAt0 (F := Ideal) m c t = block (V m c main_arg0) (grid0.coords t 0))
    (c : Dev nD) (t : Fin cfg0.N) :
    (dats m 0 c).flushed 0 t = ((cfg0.win 0).blk t).view.read (Elt Ideal) (whole (V m c main_arg0)) := by
  show (cfg0.win 0).cut (grid0.coords t) ((dats m 0 c).after 0 t) = _
  rw [after0_0, hblock]
  obtain ⟨e0, e1, e2, e3⟩ := point_facts t
  funext j
  rw [View.read_apply]
  refine block_eq_whole (V m c main_arg0) (grid0.coords t 0) (win0_0.xinj (grid0.coords t) j)
    (((cfg0.win 0).blk t).view.emb j) ?_ ?_
  · show win0_0.index t (0 : Fin 3) * 1 + 1 * (j 0).val = (grid0.coords t (0 : Fin 1)).val
    have hj : (j 0).val < 1 := (j 0).isLt
    omega
  · show win0_0.index t (2 : Fin 3) * 2048 + 1 * (j 2).val = (j 2).val
    omega

/-- An index of the array is in point `t`'s block iff each coordinate is in the block's range on its axis. -/
theorem mem_blk (t : Fin cfg0.N) (i : S32x1x2048.Idx) :
    i ∈ ((cfg0.win 0).blk t).view.set ↔ ∀ a : Fin 3, win0_0.index t a * S1x1x2048.size a ≤ (i a).val
      ∧ (i a).val < win0_0.index t a * S1x1x2048.size a + S1x1x2048.size a := by
  show i ∈ ((View.whole main_call0_v0).slice (win0_0.rect t)).set ↔ _
  rw [View.set_slice_whole, Rect.mem_set_unit]
  exact Iff.rfl

/-- THE COVER: the entry `(b, 0, q)` is in point `b`'s block, and every point writes its block back. -/
theorem cover (i : S32x1x2048.Idx) :
    ∃ t : Fin cfg0.N, (cfg0.win 0).flush t = true ∧ i ∈ ((cfg0.win 0).blk t).view.set := by
  have hN : cfg0.N = 32 := N_0
  have h0 : (i 0).val < 32 := (i 0).isLt
  have h1 : (i 1).val < 1 := (i 1).isLt
  have h2 : (i 2).val < 2048 := (i 2).isLt
  obtain ⟨t, ht⟩ : ∃ t : Fin cfg0.N, t.val = (i 0).val := ⟨⟨(i 0).val, by omega⟩, rfl⟩
  obtain ⟨e0, e1, e2, e3⟩ := point_facts t
  refine ⟨t, flush0_0 t, ?_⟩
  rw [mem_blk]
  intro a
  match a with
  | ⟨0, _⟩ =>
    show win0_0.index t (0 : Fin 3) * 1 ≤ (i 0).val ∧ (i 0).val < win0_0.index t (0 : Fin 3) * 1 + 1
    omega
  | ⟨1, _⟩ =>
    show win0_0.index t (1 : Fin 3) * 1 ≤ (i 1).val ∧ (i 1).val < win0_0.index t (1 : Fin 3) * 1 + 1
    omega
  | ⟨2, _⟩ =>
    show win0_0.index t (2 : Fin 3) * 2048 ≤ (i 2).val ∧ (i 2).val < win0_0.index t (2 : Fin 3) * 2048 + 2048
    omega

/-- THE ARRAY after the last point is `whole x`: every entry was overwritten, by a block of that one function. -/
theorem final
    (hblock : ∀ (c : Dev nD) (t : Fin cfg0.N), outsAt0 (F := Ideal) m c t = block (V m c main_arg0) (grid0.coords t 0))
    (c : Dev nD) : (dats m 0 c).arrAt 0 cfg0.N = whole (V m c main_arg0) :=
  (dats m 0 c).arrAt_eq_of_cover 0 (whole (V m c main_arg0)) (fun t _ => flushed_eq m hblock c t) cover

end Cert.KernelIdeal.KerValue

end
-- ==== Proof.KerRun.lean ====
/-
  The host's two lines after the region, and the kernel's run with its result named.

  After the region the host cuts the 32 padding lanes off each row, `[32, 1, 2048] → [32, 1, 2016]` from offset zero,
  and drops the unit axis, `[32, 1, 2016] → [32, 2016]`. Neither line changes a value. A reshape keeps the row-major
  position: `(b, d)` of `[32, 2016]` is at position `2016 b + d`, which is `(b, 0, d)` of `[32, 1, 2016]`. A slice
  from offset zero keeps the coordinates: `(b, 0, d)` of the cut array is `(b, 0, d)` of the array `[32, 1, 2048]`,
  for `d < 2016`. So the result's entry `(b, d)` is lane `d` of row `b` of the array the region left, which is lane
  `d` of image `b`'s block; and that lane holds the mean of the window of image `b` at diagonal position `d` (the
  hypothesis on the block's arithmetic). The image batch is written by nobody, so it ends as it was launched.
-/
import proofs.«101728_j26792005992502_2_alg».proof.Proof.KerArray
import Idealize.ShloMosaic.Lib.StableHlo.Run
import Idealize.ShloMosaic.Lib.ValueLayout

noncomputable section

namespace Cert.KernelIdeal.KerValue

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)

/-- The two host lines read at an index: the reshape of the slice of an array `A : [32, 1, 2048]` has, at `(b, d)`,
    `A`'s entry `(b, 0, d)`. -/
theorem tail_apply (A : S32x1x2048.Idx → EReal) (h1 : S32x1x2048.Slices ![0, 0, 0] S32x1x2016)
    (h2 : S32x1x2016.ShapeCasts S32x2016) (b : Fin 32) (d : Fin 2016) :
    shapeCast S32x2016 (extractStridedSlice S32x1x2016 ![0, 0, 0] A h1) h2 (ix2 b d)
      = A (ix3 b (0 : Fin 1) (⟨d.val, by omega⟩ : Fin 2048)) := by
  have hd : d.val < 2016 := d.isLt
  refine (shapeCast_apply _ h2 (ix2 b d) (ix3 b (0 : Fin 1) d) ?_).trans ?_
  · rw [Shape.rowMajor_val_three, Shape.rowMajor_val_two]
    show (b.val * 1 + 0) * 2016 + d.val = b.val * 2016 + d.val
    omega
  · refine extractStridedSlice_apply _ A h1 (ix3 b (0 : Fin 1) d) (ix3 b (0 : Fin 1) (⟨d.val, by omega⟩ : Fin 2048))
      fun a => ?_
    match a with
    | ⟨0, _⟩ => show b.val = 0 + b.val; omega
    | ⟨1, _⟩ => show 0 = 0 + 0; omega
    | ⟨2, _⟩ => show d.val = 0 + d.val; omega

/-- THE RESULT: what the host lines after the region leave in the result buffer is the mean of every window. -/
theorem result_eq (m : (ℓ : Loc nD τ sig) → Buf (Elt Ideal) ℓ)
    (hblock : ∀ (c : Dev nD) (t : Fin cfg0.N), outsAt0 (F := Ideal) m c t = block (V m c main_arg0) (grid0.coords t 0))
    (hread : ∀ (x : S32x2048x2048.Idx → EReal) (b : Fin 32) (d : Fin 2016),
        block x b (ix3 (0 : Fin 1) (0 : Fin 1) (⟨d.val, by omega⟩ : Fin 2048)) = Cert.Window.G x (ix2 b d))
    (c : Dev nD) :
    Pipeline.afterTail₀ cfgs (dats m) 0 (V0 m) [hostOps1] c main_v0
      = Cert.Window.G (m ((c.tc : Thread nD τ).loc main_arg0)) := by
  unfold Pipeline.afterTail₀
  show StableHlo.after hostOps1 _ (Proc.devRef .tc main_v0) = _
  after_results
  funext n
  obtain ⟨b, d, rfl⟩ : ∃ (b : Fin 32) (d : Fin 2016), n = ix2 b d := ⟨n 0, n 1, eq_ix2 n⟩
  show shapeCast S32x2016 (extractStridedSlice S32x1x2016 ![0, 0, 0]
    (Pipeline.withArrays spec0 c (V0 m c) (fun w => (dats m 0 c).arrAt w cfg0.N) (Proc.devRef .tc main_call0_v0)
      : S32x1x2048.Idx → EReal) slices_S32x1x2048_S32x1x2016_0_0_0)
    shapeCasts_S32x1x2016_S32x2016 (ix2 b d) = Cert.Window.G (V m c main_arg0) (ix2 b d)
  rw [tail_apply]
  refine (congrFun ((Pipeline.withArrays_arr spec0 launch0.win.arr_inj c (V0 m c)
    (fun w => (dats m 0 c).arrAt w cfg0.N) 0).trans (final m hblock c)) _).trans ?_
  exact hread (V m c main_arg0) b d

/-- THE RUN: every weakly fair execution of the kernel's program terminates with the result buffer at the mean of every
    window of the image batch as launched, and the image batch unchanged. Both buffers bypass the region (neither is
    the output window's array), so each ends as the host lines after the region leave it. -/
theorem kernel_run (m : (ℓ : Loc nD τ sig) → Buf (Elt Ideal) ℓ) (ρ : Dev nD → PrngReg)
    (hblock : ∀ (c : Dev nD) (t : Fin cfg0.N), outsAt0 (F := Ideal) m c t = block (V m c main_arg0) (grid0.coords t 0))
    (hread : ∀ (x : S32x2048x2048.Idx → EReal) (b : Fin 32) (d : Fin 2016),
        block x b (ix3 (0 : Fin 1) (0 : Fin 1) (⟨d.val, by omega⟩ : Fin 2048)) = Cert.Window.G x (ix2 b d)) :
    θ_run (defs (F := Ideal)) (onTc (τ := τ) (main (F := Ideal))) ⟨m, fun _ => 0, ρ⟩ (fun r => ∀ c : Dev nD,
      r.2.mem ((c.tc : Thread nD τ).loc main_v0) = Cert.Window.G (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v0 (Pipeline.mem_restRefs_of main_v0 (by decide) (by decide))).trans (result_eq m hblock hread c),
       ((h c).2 main_arg0 (Pipeline.mem_restRefs_of main_arg0 (by decide) (by decide))).trans (W_main_arg0 m (dats m) c)⟩)
    (run_main m ρ)

end Cert.KernelIdeal.KerValue

end
-- ==== Proof.RefIndex.lean ====
/-
  Which element of the image the reference reads. Before it gathers, the reference builds an integer array of shape
  [2016, 16, 16, 2]: at diagonal position `d`, window row `i` and window column `j` it holds the pair
  (row, column) = (d + i, d + 17 + j) of the image element that entry of the window is. The pair is laid along the last
  axis: two arrays of shape [2016, 16, 16, 1], one of rows and one of columns, joined end to end.

  Each of the two is computed in 32-bit integer arithmetic from the counting arrays 0, 1, …, 2015 and 0, 1, …, 15:
  the row is d + i, the column ((d + 16) + 1) + j. Both then pass a test "is it negative, read as a signed number?
  then add 2048": a negative index would count from the end of the axis. Here d < 2016 and i, j < 16, so both numbers are below
  2^31, nothing wraps around in the 32-bit sums, neither is negative as a signed number, and the test leaves them alone.
  The rest is broadcasting: every later array reads the earlier one at the coordinates it keeps.

  This file reads the joined array at (d, i, j, 0) and at (d, i, j, 1) and says which word it finds, and that the word,
  read back as a signed number, is the natural number d + i, or d + 17 + j.
-/
import proofs.«101728_j26792005992502_2_alg».proof.Proof.Gen.ReferenceIdeal.Read
import Idealize.ShloMosaic.Lib.ValueIdx
import Idealize.ShloMosaic.Lib.Pipeline.Value

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## Small numbers as 32-bit words -/

/-- A natural number below `2^31`, written as a 32-bit word and read back as a signed number, is itself. -/
theorem toInt_ofNat_small (n : Nat) (h : n < 2147483648) : (BitVec.ofNat 32 n).toInt = (n : Int) := by
  have hn : (BitVec.ofNat 32 n).toNat = n := by rw [BitVec.toNat_ofNat]; omega
  rw [BitVec.toInt_eq_toNat_of_lt (by rw [hn]; omega), hn]

/-- So the signed reading, as a natural number, is the number. -/
theorem toInt_toNat_ofNat_small (n : Nat) (h : n < 2147483648) : (BitVec.ofNat 32 n).toInt.toNat = n := by
  rw [toInt_ofNat_small n h]; exact Int.toNat_natCast n

/-- The wrap of negative indices leaves such a word alone: it is not negative, so the select takes its second
    branch, the word itself. -/
theorem select_of_small (n : Nat) (h : n < 2147483648) (y : BitVec 32) :
    Scalar.select (IntOp.cmpi .slt (BitVec.ofNat 32 n) 0#32) y (BitVec.ofNat 32 n) = BitVec.ofNat 32 n := by
  have hlt : (BitVec.ofNat 32 n).slt 0#32 = false := by
    rw [BitVec.slt_eq_decide, toInt_ofNat_small n h, BitVec.toInt_zero]
    exact decide_eq_false (by omega)
  show Scalar.select (BitVec.ofBool ((BitVec.ofNat 32 n).slt 0#32)) y (BitVec.ofNat 32 n) = BitVec.ofNat 32 n
  rw [hlt]
  exact select_zero _ _

/-! ## The row and the column before the wrap -/

/-- The row of window entry `(i, ·)` at diagonal position `d`: the sum of the two counting arrays. -/
theorem row_word (d : Fin 2016) (i : Fin 16) :
    val_main_v6 (F := F) (ix2 d i) = BitVec.ofNat 32 (d.val + i.val) := by
  rw [val_main_v6_apply, val_main_v4_apply, val_main_v2_apply, val_main_v0_apply,
    val_main_v5_apply, val_main_v3_apply, val_main_v1_apply]
  show BitVec.ofNat 32 d.val + BitVec.ofNat 32 i.val = BitVec.ofNat 32 (d.val + i.val)
  exact BitVec.ofNat_add_ofNat _ _

/-- The column of window entry `(·, j)` at diagonal position `d`: `((d + 16) + 1) + j`. -/
theorem col_word (d : Fin 2016) (j : Fin 16) :
    val_main_v15 (F := F) (ix2 d j) = BitVec.ofNat 32 (d.val + 17 + j.val) := by
  rw [val_main_v15_apply, val_main_v13_apply, val_main_v11_apply, val_main_v9_apply, val_main_v7_apply,
    val_main_v0_apply, val_main_v8_apply, val_main_c_apply, val_main_v10_apply, val_main_c_0_apply,
    val_main_v14_apply, val_main_v12_apply, val_main_v1_apply]
  show ((BitVec.ofNat 32 d.val + BitVec.ofNat 32 16) + BitVec.ofNat 32 1) + BitVec.ofNat 32 j.val
    = BitVec.ofNat 32 (d.val + 17 + j.val)
  rw [BitVec.ofNat_add_ofNat, BitVec.ofNat_add_ofNat, BitVec.ofNat_add_ofNat]

/-! ## After the wrap, and broadcast to the window -/

/-- The row after the wrap of negative indices: unchanged. -/
theorem row_wrapped (d : Fin 2016) (i : Fin 16) :
    val_main_v22 (F := F) (ix3 d i (0 : Fin 1)) = BitVec.ofNat 32 (d.val + i.val) := by
  have e : idx_main_v16 (ix3 d i (0 : Fin 1)) = ix2 d i :=
    funext fun a => by match a with | ⟨0, _⟩ => rfl | ⟨1, _⟩ => rfl
  have h16 : val_main_v16 (F := F) (ix3 d i (0 : Fin 1)) = BitVec.ofNat 32 (d.val + i.val) := by
    rw [val_main_v16_apply, e]; exact row_word d i
  rw [val_main_v22_apply, val_main_v19_apply, h16, val_main_v18_apply, val_main_c_1_apply]
  exact select_of_small _ (by omega) _

/-- The column after the wrap of negative indices: unchanged. -/
theorem col_wrapped (d : Fin 2016) (j : Fin 16) :
    val_main_v27 (F := F) (ix3 d (0 : Fin 1) j) = BitVec.ofNat 32 (d.val + 17 + j.val) := by
  have e : idx_main_v17 (ix3 d (0 : Fin 1) j) = ix2 d j :=
    funext fun a => by match a with | ⟨0, _⟩ => rfl | ⟨1, _⟩ => rfl
  have h17 : val_main_v17 (F := F) (ix3 d (0 : Fin 1) j) = BitVec.ofNat 32 (d.val + 17 + j.val) := by
    rw [val_main_v17_apply, e]; exact col_word d j
  rw [val_main_v27_apply, val_main_v24_apply, h17, val_main_v23_apply, val_main_c_3_apply]
  exact select_of_small _ (by omega) _

/-- The row array with a unit last axis: at `(d, i, j, 0)` the row of entry `(i, j)`, whatever `j`. -/
theorem row_piece (d : Fin 2016) (i j : Fin 16) :
    val_main_v30 (F := F) (ix4 d i j (0 : Fin 1)) = BitVec.ofNat 32 (d.val + i.val) := by
  have e30 : idx_main_v30 (ix4 d i j (0 : Fin 1)) = ix3 d i j :=
    funext fun a => by match a with | ⟨0, _⟩ => rfl | ⟨1, _⟩ => rfl | ⟨2, _⟩ => rfl
  have e28 : idx_main_v28 (ix3 d i j) = ix3 d i (0 : Fin 1) :=
    funext fun a => by match a with | ⟨0, _⟩ => rfl | ⟨1, _⟩ => rfl | ⟨2, _⟩ => rfl
  rw [val_main_v30_apply, e30, val_main_v28_apply, e28]
  exact row_wrapped d i

/-- The column array with a unit last axis: at `(d, i, j, 0)` the column of entry `(i, j)`, whatever `i`. -/
theorem col_piece (d : Fin 2016) (i j : Fin 16) :
    val_main_v31 (F := F) (ix4 d i j (0 : Fin 1)) = BitVec.ofNat 32 (d.val + 17 + j.val) := by
  have e31 : idx_main_v31 (ix4 d i j (0 : Fin 1)) = ix3 d i j :=
    funext fun a => by match a with | ⟨0, _⟩ => rfl | ⟨1, _⟩ => rfl | ⟨2, _⟩ => rfl
  have e29 : idx_main_v29 (ix3 d i j) = ix3 d (0 : Fin 1) j :=
    funext fun a => by match a with | ⟨0, _⟩ => rfl | ⟨1, _⟩ => rfl | ⟨2, _⟩ => rfl
  rw [val_main_v31_apply, e31, val_main_v29_apply, e29]
  exact col_wrapped d j

/-! ## The joined array -/

/-- Position 0 of the last axis falls in the first piece: the row. -/
theorem start_row (d : Fin 2016) (i j : Fin 16) :
    val_main_v32 (F := F) (ix4 d i j (0 : Fin 2)) = BitVec.ofNat 32 (d.val + i.val) := by
  unfold val_main_v32
  refine (concatenate_pair_apply_left (s₁ := S2016x16x16x1) (s₂ := S2016x16x16x1) _ _ _ _
    (ix4 d i j (0 : Fin 2)) rfl (ix4 d i j (0 : Fin 1))
    (fun b => by match b with | ⟨0, _⟩ => rfl | ⟨1, _⟩ => rfl | ⟨2, _⟩ => rfl | ⟨3, _⟩ => rfl)).trans ?_
  exact row_piece d i j

/-- Position 1 of the last axis falls in the second piece, at its position 0: the column. -/
theorem start_col (d : Fin 2016) (i j : Fin 16) :
    val_main_v32 (F := F) (ix4 d i j (1 : Fin 2)) = BitVec.ofNat 32 (d.val + 17 + j.val) := by
  unfold val_main_v32
  refine (concatenate_pair_apply_right (s₁ := S2016x16x16x1) (s₂ := S2016x16x16x1) _ _ _ _
    (ix4 d i j (1 : Fin 2)) rfl rfl (ix4 d i j (0 : Fin 1))
    (fun b hb => by
      match b, hb with
      | ⟨0, _⟩, _ => rfl
      | ⟨1, _⟩, _ => rfl
      | ⟨2, _⟩, _ => rfl
      | ⟨3, _⟩, hb => exact absurd rfl hb) rfl).trans ?_
  exact col_piece d i j

/-- Read as signed numbers, the two starts at `(d, i, j)` are the naturals `d + i` and `d + 17 + j`. -/
theorem start_row_toNat (d : Fin 2016) (i j : Fin 16) :
    (val_main_v32 (F := F) (ix4 d i j (0 : Fin 2))).toInt.toNat = d.val + i.val := by
  rw [start_row]; exact toInt_toNat_ofNat_small _ (by omega)

theorem start_col_toNat (d : Fin 2016) (i j : Fin 16) :
    (val_main_v32 (F := F) (ix4 d i j (1 : Fin 2))).toInt.toNat = d.val + 17 + j.val := by
  rw [start_col]; exact toInt_toNat_ofNat_small _ (by omega)

end Cert.ReferenceIdeal.RefValue
-- ==== Proof.RefWindow.lean ====
/-
  The reference program is the mean of every window. The reference gathers, for each image `b`, diagonal position `d`
  and window entry `(p, q)`, one element of the image; sums the 256 gathered elements of each window, starting from
  zero; and divides each sum by 256.

  Which element it gathers is told by an integer array holding a (row, column) pair for every `(d, p, q)`; the pair at
  `(d, p, q)` is `(d + p, d + 17 + q)` (the module of the index arrays proves it). A gather reads each start index as a
  signed number and clamps it so that the slice it takes, here a single element, stays inside the image: into
  `[0, 2047]`. Both numbers are at most `2015 + 17 + 15 = 2047`, so the clamp changes nothing and the element gathered
  is `x[b, d + p, d + 17 + q]`: entry `(p, q)` of the window at `d`.

  The sum runs over the last two axes of the gathered array `[32, 2016, 16, 16]` at once: at `(b, d)` it is the sum
  over all indices `(b', d', p, q)` with `(b', d') = (b, d)`. Those indices are exactly the pairs `(p, q)`, so it is
  the double sum over `p` and `q`; addition on the extended reals is commutative and associative, so no order of
  summation has to be tracked. The initial value is `0`, and dividing by `256` is multiplying by `1/256`.
-/
import proofs.«101728_j26792005992502_2_alg».proof.Proof.RefIndex
import proofs.«101728_j26792005992502_2_alg».proof.Proof.Spec
import Idealize.ShloMosaic.Lib.ValueIdx

namespace Cert.ReferenceIdeal.RefValue

open Cert.ReferenceIdeal Cert.ReferenceIdeal.Gen Cert.ReferenceIdeal.Read Idealize.ShloMosaic Idealize.ShloMosaic.ValueIdx

/-- The gather's dimension numbers: the image's first axis is taken whole (a slice of 32), its last two axes are
    addressed by the start index (slices of one element, collapsed away). -/
local notation "gatherDims" => gather_S32x2048x2048_S2016x16x16x2_S32x2016x16x16_0_12_n_n_12_3_3211
/-- The sum's axes: the last two of `[32, 2016, 16, 16]` are summed away. -/
local notation "sumAxes" => reducesTo_S32x2016x16x16_S32x2016_d2_3

/-! ## The gather read at an index -/

/-- Where result index `(b, d, p, q)` finds component `c` of its start index: at `(d, p, q, c)` — its coordinates on
    the result's last three axes, then the component. -/
theorem start_position (b : Fin 32) (d : Fin 2016) (p q : Fin 16) (c : Fin 2) :
    GatherDims.siIdx gatherDims (ix4 b d p q) ⟨c.val, c.isLt⟩ = ix4 d p q c := by
  funext a
  refine Fin.ext ?_
  match a with
  | ⟨0, _⟩ => rfl
  | ⟨1, _⟩ => rfl
  | ⟨2, _⟩ => rfl
  | ⟨3, _⟩ => rfl

/-- THE GATHER AT `(b, d, p, q)`: the image at `b`, at the row and the column the start indices hold at `(d, p, q, 0)`
    and `(d, p, q, 1)`, each read as a signed number and clamped into `[0, 2047]`. On the image's first axis the start
    is `0` and the offset is `b`; on the other two the offset is `0` (a slice of one element) and the start is the
    clamped index. -/
theorem gather_at {α : Type} (x : S32x2048x2048.Idx → α) (idx : IVec S2016x16x16x2 32)
    (b : Fin 32) (d : Fin 2016) (p q : Fin 16) :
    Host.gather gatherDims x idx (ix4 b d p q)
      = x (ix3 b ⟨min (idx (ix4 d p q (0 : Fin 2))).toInt.toNat 2047, by omega⟩
            ⟨min (idx (ix4 d p q (1 : Fin 2))).toInt.toNat 2047, by omega⟩) := by
  unfold Host.gather
  congr 1
  funext a
  refine Fin.ext ?_
  match a with
  | ⟨0, _⟩ =>
    show GatherDims.start gatherDims (ix4 b d p q) idx 0 + GatherDims.batchCoord gatherDims (ix4 b d p q) 0
      + GatherDims.offCoord gatherDims (ix4 b d p q) 0 = b.val
    have hs : GatherDims.start gatherDims (ix4 b d p q) idx 0 = 0 := by
      unfold GatherDims.start; exact dif_neg (by decide)
    have hb : GatherDims.batchCoord gatherDims (ix4 b d p q) 0 = 0 :=
      GatherDims.batchCoord_eq_zero _ _ _ List.not_mem_nil
    have ho : GatherDims.offCoord gatherDims (ix4 b d p q) 0 = b.val := by
      unfold GatherDims.offCoord; rw [dif_pos (by decide)]; rfl
    rw [hs, hb, ho]
    simp only [Nat.zero_add]
  | ⟨1, _⟩ =>
    show GatherDims.start gatherDims (ix4 b d p q) idx 1 + GatherDims.batchCoord gatherDims (ix4 b d p q) 1
      + GatherDims.offCoord gatherDims (ix4 b d p q) 1 = min (idx (ix4 d p q (0 : Fin 2))).toInt.toNat 2047
    have hb : GatherDims.batchCoord gatherDims (ix4 b d p q) 1 = 0 :=
      GatherDims.batchCoord_eq_zero _ _ _ List.not_mem_nil
    have ho : GatherDims.offCoord gatherDims (ix4 b d p q) 1 = 0 :=
      GatherDims.offCoord_eq_zero _ _ _ (fun h => ((GatherDims.mem_sKept _ _).mp h).1 (by decide))
    have hs : GatherDims.start gatherDims (ix4 b d p q) idx 1
        = min (idx (ix4 d p q (0 : Fin 2))).toInt.toNat 2047 := by
      unfold GatherDims.start
      rw [dif_pos (by decide)]
      show min (idx (GatherDims.siIdx gatherDims (ix4 b d p q) ⟨(0 : Fin 2).val, (0 : Fin 2).isLt⟩)).toInt.toNat 2047 = _
      rw [start_position b d p q 0]
    rw [hs, hb, ho]
    simp only [Nat.add_zero]
  | ⟨2, _⟩ =>
    show GatherDims.start gatherDims (ix4 b d p q) idx 2 + GatherDims.batchCoord gatherDims (ix4 b d p q) 2
      + GatherDims.offCoord gatherDims (ix4 b d p q) 2 = min (idx (ix4 d p q (1 : Fin 2))).toInt.toNat 2047
    have hb : GatherDims.batchCoord gatherDims (ix4 b d p q) 2 = 0 :=
      GatherDims.batchCoord_eq_zero _ _ _ List.not_mem_nil
    have ho : GatherDims.offCoord gatherDims (ix4 b d p q) 2 = 0 :=
      GatherDims.offCoord_eq_zero _ _ _ (fun h => ((GatherDims.mem_sKept _ _).mp h).1 (by decide))
    have hs : GatherDims.start gatherDims (ix4 b d p q) idx 2
        = min (idx (ix4 d p q (1 : Fin 2))).toInt.toNat 2047 := by
      unfold GatherDims.start
      rw [dif_pos (by decide)]
      show min (idx (GatherDims.siIdx gatherDims (ix4 b d p q) ⟨(1 : Fin 2).val, (1 : Fin 2).isLt⟩)).toInt.toNat 2047 = _
      rw [start_position b d p q 1]
    rw [hs, hb, ho]
    simp only [Nat.add_zero]

/-- The gathered array at `(b, d, p, q)` is entry `(p, q)` of the window of image `b` at `d`: the start indices are
    `d + p` and `d + 17 + q`, both at most `2047`, so the clamp is the identity. -/
theorem window_entry (x : (⟨S32x2048x2048, .f32⟩ : BufTy).Contents (Elt Ideal)) (b : Fin 32) (d : Fin 2016) (p q : Fin 16) :
    val_main_v33 (F := Ideal) x (ix4 b d p q) = x (ix3 b (Cert.Window.row d p) (Cert.Window.col d q)) := by
  unfold val_main_v33
  refine (gather_at x _ b d p q).trans ?_
  congr 1
  funext a
  refine Fin.ext ?_
  match a with
  | ⟨0, _⟩ => rfl
  | ⟨1, _⟩ =>
    show min (val_main_v32 (F := Ideal) (ix4 d p q (0 : Fin 2))).toInt.toNat 2047 = d.val + p.val
    rw [start_row_toNat]; omega
  | ⟨2, _⟩ =>
    show min (val_main_v32 (F := Ideal) (ix4 d p q (1 : Fin 2))).toInt.toNat 2047 = d.val + 17 + q.val
    rw [start_col_toNat]; omega

/-! ## The sum over the last two axes -/

/-- Dropping the two summed coordinates of `(b, d, p, q)` leaves `(b, d)`. -/
theorem drop_entry (b : Fin 32) (d : Fin 2016) (p q : Fin 16) :
    Shape.ReducesTo.drop sumAxes (ix4 b d p q) = ix2 b d := by
  funext a
  match a with
  | ⟨0, _⟩ => rfl
  | ⟨1, _⟩ => rfl

/-- THE SUM AT `(b, d)`: the initial value plus the double sum over the two summed coordinates. The indices that reduce
    to `(b, d)` are exactly the `(b, d, p, q)`: the pair `(p, q)` names each of them once. -/
theorem reduce_window (f : S32x2016x16x16.Idx → EReal) (init : EReal) (b : Fin 32) (d : Fin 2016) :
    Ideal.hostReduceAdd sumAxes f init (ix2 b d) = init + ∑ p : Fin 16, ∑ q : Fin 16, f (ix4 b d p q) := by
  unfold Ideal.hostReduceAdd
  refine congrArg (init + ·) ?_
  rw [← Fintype.sum_prod_type' (fun p q => f (ix4 b d p q))]
  symm
  refine Finset.sum_nbij' (fun pq => ix4 b d pq.1 pq.2) (fun n => (n 2, n 3)) ?_ ?_ ?_ ?_ ?_
  · intro pq _
    exact Finset.mem_filter.mpr ⟨Finset.mem_univ _, drop_entry b d pq.1 pq.2⟩
  · intro n _
    exact Finset.mem_univ _
  · intro pq _
    rfl
  · intro n hn
    have h := (Finset.mem_filter.mp hn).2
    have h0 : n 0 = b := congrFun h 0
    have h1 : n 1 = d := congrFun h 1
    funext a
    match a with
    | ⟨0, _⟩ => exact h0.symm
    | ⟨1, _⟩ => exact h1.symm
    | ⟨2, _⟩ => rfl
    | ⟨3, _⟩ => rfl
  · intro pq _
    rfl

/-- The summed array at `(b, d)` is the window's sum. -/
theorem window_sum (x : (⟨S32x2048x2048, .f32⟩ : BufTy).Contents (Elt Ideal)) (b : Fin 32) (d : Fin 2016) :
    val_main_v34 (F := Ideal) x (ix2 b d) = Cert.Window.windowSum x b d := by
  show Ideal.hostReduceAdd sumAxes (val_main_v33 (F := Ideal) x) (Ideal.ofBits .f32 0x00000000#32) (ix2 b d) = _
  rw [reduce_window, Cert.Window.ofBits_zero, zero_add]
  exact Finset.sum_congr rfl fun p _ => Finset.sum_congr rfl fun q _ => window_entry x b d p q

/-! ## The reference -/

/-- The reference returns the mean of every window. -/
theorem ref_eq (x : (⟨Cert.ReferenceIdeal.S32x2048x2048, .f32⟩ : BufTy).Contents (Elt Ideal)) :
    Cert.ReferenceIdeal.Read.val_main_v36 (F := Ideal) x = Cert.Window.G x := by
  funext n
  obtain ⟨b, d, rfl⟩ : ∃ (b : Fin 32) (d : Fin 2016), n = ix2 b d := ⟨n 0, n 1, eq_ix2 n⟩
  rw [val_main_v36_apply, window_sum, val_main_v35_apply, val_main_cst_5_apply, Cert.Window.G_apply]
  exact Cert.Window.div_256 _

end Cert.ReferenceIdeal.RefValue
-- ==== Proof.lean ====
/-
  The certificate's proof. The kernel takes a batch of 32 square images and returns, for each image and each of the
  2016 positions along its diagonal, the mean of a 16 × 16 window beside the diagonal; the reference gathers the same
  windows and takes their mean. Both are the function `Cert.Window.G` (Spec.lean) of the image batch:

  * the kernel: at grid point `b` the body brings 14 square bands of image `b` into scratch and leaves the block
    `KerValue.block x b` (Pieces.lean); entry `d` of that block is `G x (b, d)` (ChunkSum.lean, BlockRead.lean: a masked
    lane sum of 16 row-shifted copies of a band is the double sum over the window, and the chunks are joined in order);
    the 32 blocks tile the output array and the host's slice and reshape keep its first 2016 lanes (KerArray.lean,
    KerRun.lean);
  * the reference: the two index arrays it builds hold `d + i` and `d + 17 + j`, the gather reads the image there,
    the sum over the two window axes and the quotient by 256 give the mean (RefIndex.lean, RefWindow.lean).

  The two sides differ only in the order of a finite sum and in `· / 256` against `· × (1/256)`, which agree on every
  extended real; the precondition (finite inputs) is not used. The ideal pass rewrote nothing, so `preserves` is `True`.
-/
import proofs.«101728_j26792005992502_2_alg».proof.Defs
import proofs.«101728_j26792005992502_2_alg».proof.Proof.Gen.Kernel
import proofs.«101728_j26792005992502_2_alg».proof.Proof.KernelFrameP
import proofs.«101728_j26792005992502_2_alg».proof.Proof.Gen.KernelIdeal
import proofs.«101728_j26792005992502_2_alg».proof.Proof.KernelIdealFrameP
import proofs.«101728_j26792005992502_2_alg».proof.Proof.Gen.ReferenceIdeal
import proofs.«101728_j26792005992502_2_alg».proof.Proof.Gen.ReferenceIdeal.Run
import proofs.«101728_j26792005992502_2_alg».proof.Proof.Gen.ReferenceIdeal.Read
import proofs.«101728_j26792005992502_2_alg».proof.Proof.Gen.Pre_finite_inputs
import proofs.«101728_j26792005992502_2_alg».proof.Proof.Spec
import proofs.«101728_j26792005992502_2_alg».proof.Proof.Pieces
import proofs.«101728_j26792005992502_2_alg».proof.Proof.BlockRead
import proofs.«101728_j26792005992502_2_alg».proof.Proof.KerRun
import proofs.«101728_j26792005992502_2_alg».proof.Proof.RefWindow
import Idealize.ShloMosaic.Adequacy
import Idealize.ShloMosaic.Init

noncomputable section

namespace Cert.Proof

open Idealize.ShloMosaic Idealize.ShloMosaic.TcCoe Idealize.SL.Sem

/-- The word-level kernel runs and leaves its argument as it found it. -/
theorem frame_k : Cert.frame_Kernel (hKernel := Cert.Kernel.Gen.facts) (hPre_finite_inputs := Cert.Pre_finite_inputs.Gen.facts) :=
  fun m ρ _ => Cert.Kernel.GenP.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the window means of the image batch they were given, and the batches agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Window.G (m ((c.tc : Thread Cert.KernelIdeal.nD Cert.KernelIdeal.τ).loc Cert.KernelIdeal.main_arg0)),
    Cert.KernelIdeal.KerValue.kernel_run m ρ (Cert.KernelIdeal.KerValue.outsAt0_eq m) Cert.KernelIdeal.KerValue.block_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
